-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S3x64x64 : Shape := ⟨3, ![3, 64, 64]⟩
abbrev S3x64 : Shape := ⟨2, ![3, 64]⟩
abbrev S2x64 : Shape := ⟨2, ![2, 64]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2x64 .f32) (main_arg6 : FVec F S2 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S2x64 .f32 := Host.absf main_arg5
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S2 .f32 := Host.absf main_arg6
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  main_v28

def fn {F : FTy → Type} [FloatOps F] (main_arg0 : FVec F S100000x64 .f32) (main_arg1 : IVec S2x1000000 32) (main_arg2 : FVec F S3x64x64 .f32) (main_arg3 : FVec F S3x64 .f32) (main_arg4 : FVec F S3x64x64 .f32) (main_arg5 : FVec F S2x64 .f32) (main_arg6 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg2
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg3
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64x64 .f32 := Host.absf main_arg4
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg5 main_arg6 main_v13 main_v16
-- ==== Kernel.lean ====
abbrev S100000x64 : Shape := ⟨2, ![100000, 64]⟩
abbrev S2x1000000 : Shape := ⟨2, ![2, 1000000]⟩
abbrev S3x64x64 : Shape := ⟨3, ![3, 64, 64]⟩
abbrev S3x64 : Shape := ⟨2, ![3, 64]⟩
abbrev S2x64 : Shape := ⟨2, ![2, 64]⟩
abbrev S2 : Shape := ⟨1, ![2]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S3x128x64 : Shape := ⟨3, ![3, 128, 64]⟩
abbrev S3x1x64 : Shape := ⟨3, ![3, 1, 64]⟩
abbrev S64x2 : Shape := ⟨2, ![64, 2]⟩
abbrev S1x2 : Shape := ⟨2, ![1, 2]⟩
abbrev S1000000x64 : Shape := ⟨2, ![1000000, 64]⟩
abbrev S1x128x64 : Shape := ⟨3, ![1, 128, 64]⟩
abbrev S128x64 : Shape := ⟨2, ![128, 64]⟩
abbrev S1x1x64 : Shape := ⟨3, ![1, 1, 64]⟩
abbrev S1x64 : Shape := ⟨2, ![1, 64]⟩
abbrev S5000x64 : Shape := ⟨2, ![5000, 64]⟩
abbrev S5000x1 : Shape := ⟨2, ![5000, 1]⟩
abbrev S5000x128 : Shape := ⟨2, ![5000, 128]⟩
abbrev S100000x2 : Shape := ⟨2, ![100000, 2]⟩
abbrev S5000x2 : Shape := ⟨2, ![5000, 2]⟩

abbrev nBuf : Space → Nat
  | .hbm => 92
  | .vmem => 32
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S3x64x64, .f32⟩
  | .hbm, ⟨3, _⟩ => ⟨S3x64, .f32⟩
  | .hbm, ⟨4, _⟩ => ⟨S3x64x64, .f32⟩
  | .hbm, ⟨5, _⟩ => ⟨S2x64, .f32⟩
  | .hbm, ⟨6, _⟩ => ⟨S2, .f32⟩
  | .hbm, ⟨7, _⟩ => ⟨S1x1000000, .i32⟩
  | .hbm, ⟨8, _⟩ => ⟨S1000000, .i32⟩
  | .hbm, ⟨9, _⟩ => ⟨S1x1000000, .i32⟩
  | .hbm, ⟨10, _⟩ => ⟨S1000000, .i32⟩
  | .hbm, ⟨11, _⟩ => ⟨S_, .f32⟩
  | .hbm, ⟨12, _⟩ => ⟨S1000000, .f32⟩
  | .hbm, ⟨13, _⟩ => ⟨S_, .f32⟩
  | .hbm, ⟨14, _⟩ => ⟨S100000, .f32⟩
  | .hbm, ⟨15, _⟩ => ⟨S1000000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S3x64x64, .f32⟩
  | .hbm, ⟨25, _⟩ => ⟨S3x64x64, .f32⟩
  | .hbm, ⟨26, _⟩ => ⟨S3x128x64, .f32⟩
  | .hbm, ⟨27, _⟩ => ⟨S3x128x64, .bf16⟩
  | .hbm, ⟨28, _⟩ => ⟨S3x1x64, .f32⟩
  | .hbm, ⟨29, _⟩ => ⟨S64x2, .f32⟩
  | .hbm, ⟨30, _⟩ => ⟨S64x2, .bf16⟩
  | .hbm, ⟨31, _⟩ => ⟨S1x2, .f32⟩
  | .hbm, ⟨32, _⟩ => ⟨S100000x64, .bf16⟩
  | .hbm, ⟨33, _⟩ => ⟨S_, .i32⟩
  | .hbm, ⟨34, _⟩ => ⟨S1000000, .i32⟩
  | .hbm, ⟨35, _⟩ => ⟨S1000000, .i1⟩
  | .hbm, ⟨36, _⟩ => ⟨S_, .i32⟩
  | .hbm, ⟨37, _⟩ => ⟨S1000000, .i32⟩
  | .hbm, ⟨38, _⟩ => ⟨S1000000, .i32⟩
  | .hbm, ⟨39, _⟩ => ⟨S1000000, .i32⟩
  | .hbm, ⟨40, _⟩ => ⟨S1000000x1, .i32⟩
  | .hbm, ⟨41, _⟩ => ⟨S1000000x64, .bf16⟩
  | .hbm, ⟨42, _⟩ => ⟨S1000000x64, .f32⟩
  | .hbm, ⟨43, _⟩ => ⟨S_, .f32⟩
  | .hbm, ⟨44, _⟩ => ⟨S100000x64, .f32⟩
  | .hbm, ⟨45, _⟩ => ⟨S1000000x1, .i32⟩
  | .hbm, ⟨46, _⟩ => ⟨S100000x64, .f32⟩
  | .hbm, ⟨47, _⟩ => ⟨S1x128x64, .bf16⟩
  | .hbm, ⟨48, _⟩ => ⟨S128x64, .bf16⟩
  | .hbm, ⟨49, _⟩ => ⟨S1x1x64, .f32⟩
  | .hbm, ⟨50, _⟩ => ⟨S1x64, .f32⟩
  | .hbm, ⟨51, _⟩ => ⟨S100000x64, .f32⟩
  | .hbm, ⟨52, _⟩ => ⟨S100000x64, .bf16⟩
  | .hbm, ⟨53, _⟩ => ⟨S_, .i32⟩
  | .hbm, ⟨54, _⟩ => ⟨S1000000, .i32⟩
  | .hbm, ⟨55, _⟩ => ⟨S1000000, .i1⟩
  | .hbm, ⟨56, _⟩ => ⟨S_, .i32⟩
  | .hbm, ⟨57, _⟩ => ⟨S1000000, .i32⟩
  | .hbm, ⟨58, _⟩ => ⟨S1000000, .i32⟩
  | .hbm, ⟨59, _⟩ => ⟨S1000000, .i32⟩
  | .hbm, ⟨60, _⟩ => ⟨S1000000x1, .i32⟩
  | .hbm, ⟨61, _⟩ => ⟨S1000000x64, .bf16⟩
  | .hbm, ⟨62, _⟩ => ⟨S1000000x64, .f32⟩
  | .hbm, ⟨63, _⟩ => ⟨S_, .f32⟩
  | .hbm, ⟨64, _⟩ => ⟨S100000x64, .f32⟩
  | .hbm, ⟨65, _⟩ => ⟨S1000000x1, .i32⟩
  | .hbm, ⟨66, _⟩ => ⟨S100000x64, .f32⟩
  | .hbm, ⟨67, _⟩ => ⟨S1x128x64, .bf16⟩
  | .hbm, ⟨68, _⟩ => ⟨S128x64, .bf16⟩
  | .hbm, ⟨69, _⟩ => ⟨S1x1x64, .f32⟩
  | .hbm, ⟨70, _⟩ => ⟨S1x64, .f32⟩
  | .hbm, ⟨71, _⟩ => ⟨S100000x64, .f32⟩
  | .hbm, ⟨72, _⟩ => ⟨S100000x64, .bf16⟩
  | .hbm, ⟨73, _⟩ => ⟨S_, .i32⟩
  | .hbm, ⟨74, _⟩ => ⟨S1000000, .i32⟩
  | .hbm, ⟨75, _⟩ => ⟨S1000000, .i1⟩
  | .hbm, ⟨76, _⟩ => ⟨S_, .i32⟩
  | .hbm, ⟨77, _⟩ => ⟨S1000000, .i32⟩
  | .hbm, ⟨78, _⟩ => ⟨S1000000, .i32⟩
  | .hbm, ⟨79, _⟩ => ⟨S1000000, .i32⟩
  | .hbm, ⟨80, _⟩ => ⟨S1000000x1, .i32⟩
  | .hbm, ⟨81, _⟩ => ⟨S1000000x64, .bf16⟩
  | .hbm, ⟨82, _⟩ => ⟨S1000000x64, .f32⟩
  | .hbm, ⟨83, _⟩ => ⟨S_, .f32⟩
  | .hbm, ⟨84, _⟩ => ⟨S100000x64, .f32⟩
  | .hbm, ⟨85, _⟩ => ⟨S1000000x1, .i32⟩
  | .hbm, ⟨86, _⟩ => ⟨S100000x64, .f32⟩
  | .hbm, ⟨87, _⟩ => ⟨S1x128x64, .bf16⟩
  | .hbm, ⟨88, _⟩ => ⟨S128x64, .bf16⟩
  | .hbm, ⟨89, _⟩ => ⟨S1x1x64, .f32⟩
  | .hbm, ⟨90, _⟩ => ⟨S1x64, .f32⟩
  | .hbm, ⟨91, _⟩ => ⟨S100000x2, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S128x64, .bf16⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x1, .f32⟩
  | .local _ .vmem, ⟨15, _⟩ => ⟨S5000x1, .f32⟩
  | .local _ .vmem, ⟨16, _⟩ => ⟨S128x64, .bf16⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x1, .f32⟩
  | .local _ .vmem, ⟨25, _⟩ => ⟨S5000x1, .f32⟩
  | .local _ .vmem, ⟨26, _⟩ => ⟨S128x64, .bf16⟩
  | .local _ .vmem, ⟨27, _⟩ => ⟨S1x64, .f32⟩
  | .local _ .vmem, ⟨28, _⟩ => ⟨S64x2, .bf16⟩
  | .local _ .vmem, ⟨29, _⟩ => ⟨S1x2, .f32⟩
  | .local _ .vmem, ⟨30, _⟩ => ⟨S5000x2, .f32⟩
  | .local _ .vmem, ⟨31, _⟩ => ⟨S5000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_5 : Ref sig .tc := ⟨.hbm, 53, rfl⟩
abbrev main_v39 : Ref sig .tc := ⟨.hbm, 54, rfl⟩
abbrev main_v40 : Ref sig .tc := ⟨.hbm, 55, rfl⟩
abbrev main_c_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_c_8 : Ref sig .tc := ⟨.hbm, 73, rfl⟩
abbrev main_v56 : Ref sig .tc := ⟨.hbm, 74, rfl⟩
abbrev main_v57 : Ref sig .tc := ⟨.hbm, 75, rfl⟩
abbrev main_c_9 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_10 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem7_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x2 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x2 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x2 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  shapeCasts_S100000_S100000x1 : S100000.ShapeCasts S100000x1
  transposes_S3x64x64_S3x64x64_0_2_1 : S3x64x64.Transposes [0, 2, 1] S3x64x64
  concatenates_S3x64x64_S3x64x64_S3x128x64_d1 : Shape.Concatenates [S3x64x64, S3x64x64] S3x128x64 1
  bitsLt_bf16_f32 : FTy.bits .bf16 < FTy.bits .f32
  shapeCasts_S3x64_S3x1x64 : S3x64.ShapeCasts S3x1x64
  transposes_S2x64_S64x2_1_0 : S2x64.Transposes [1, 0] S64x2
  shapeCasts_S2_S1x2 : S2.ShapeCasts S1x2
  bcast_S_S100000x64 : S_.BroadcastsInDim S100000x64 (![] : Fin 0 → Fin S100000x64.rank)
  slices_S3x128x64_S1x128x64_0_0_0 : S3x128x64.Slices ![0, 0, 0] S1x128x64
  shapeCasts_S1x128x64_S128x64 : S1x128x64.ShapeCasts S128x64
  slices_S3x1x64_S1x1x64_0_0_0 : S3x1x64.Slices ![0, 0, 0] S1x1x64
  shapeCasts_S1x1x64_S1x64 : S1x1x64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  concatenates_S5000x64_S5000x64_S5000x128_d1 : Shape.Concatenates [S5000x64, S5000x64] S5000x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S3x128x64_S1x128x64_1_0_0 : S3x128x64.Slices ![1, 0, 0] S1x128x64
  slices_S3x1x64_S1x1x64_1_0_0 : S3x1x64.Slices ![1, 0, 0] S1x1x64
  slices_S3x128x64_S1x128x64_2_0_0 : S3x128x64.Slices ![2, 0, 0] S1x128x64
  slices_S3x1x64_S1x1x64_2_0_0 : S3x1x64.Slices ![2, 0, 0] S1x1x64
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x128_S128x64_S5000x64_1_0_0_1_n_n_wf : DotDims.WF S5000x128 S128x64 S5000x64 [1] [0] [0] [1] [] []
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .bf16 = 32 ∨ (Rect.block (s := S128x64) S128x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .bf16 = 32 ∨ (Rect.block (s := S128x64) S128x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .bf16 = 32 ∨ (Rect.block (s := S128x64) S128x64.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x2.size a ≤ S64x2.size a
  hwx2_5 : ∀ i : grid2.Coords, EltTy.bits .bf16 = 32 ∨ (Rect.block (s := S64x2) S64x2.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x2.size a ≤ S1x2.size a
  hwx2_6 : ∀ i : grid2.Coords, EltTy.bits .f32 = 32 ∨ (Rect.block (s := S1x2) S1x2.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x2.size a ≤ S100000x2.size a
  hwx2_7 : ∀ i : grid2.Coords, EltTy.bits .f32 = 32 ∨ (Rect.block (s := S100000x2) S5000x2.size (cc2_transform_7 i) (hinb2_7 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_v32) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v36) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v49) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v51) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v54) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v66) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v68) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v70) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v19) S64x2.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v20) S1x2.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v71) S5000x2.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S3x64x64 : Shape := ⟨3, ![3, 64, 64]⟩
abbrev S3x64 : Shape := ⟨2, ![3, 64]⟩
abbrev S2x64 : Shape := ⟨2, ![2, 64]⟩
abbrev S2 : Shape := ⟨1, ![2]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x64 : Shape := ⟨2, ![1000000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S64x2 : Shape := ⟨2, ![64, 2]⟩
abbrev S100000x2 : Shape := ⟨2, ![100000, 2]⟩
abbrev S1x2 : Shape := ⟨2, ![1, 2]⟩

abbrev nBuf : Space → Nat
  | .hbm => 122
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S3x64x64, .f32⟩
  | .hbm, ⟨3, _⟩ => ⟨S3x64, .f32⟩
  | .hbm, ⟨4, _⟩ => ⟨S3x64x64, .f32⟩
  | .hbm, ⟨5, _⟩ => ⟨S2x64, .f32⟩
  | .hbm, ⟨6, _⟩ => ⟨S2, .f32⟩
  | .hbm, ⟨7, _⟩ => ⟨S1x1000000, .i32⟩
  | .hbm, ⟨8, _⟩ => ⟨S1000000, .i32⟩
  | .hbm, ⟨9, _⟩ => ⟨S1x1000000, .i32⟩
  | .hbm, ⟨10, _⟩ => ⟨S1000000, .i32⟩
  | .hbm, ⟨11, _⟩ => ⟨S_, .f32⟩
  | .hbm, ⟨12, _⟩ => ⟨S1000000, .f32⟩
  | .hbm, ⟨13, _⟩ => ⟨S_, .f32⟩
  | .hbm, ⟨14, _⟩ => ⟨S100000, .f32⟩
  | .hbm, ⟨15, _⟩ => ⟨S1000000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S_, .i32⟩
  | .hbm, ⟨25, _⟩ => ⟨S1000000, .i32⟩
  | .hbm, ⟨26, _⟩ => ⟨S1000000, .i1⟩
  | .hbm, ⟨27, _⟩ => ⟨S_, .i32⟩
  | .hbm, ⟨28, _⟩ => ⟨S1000000, .i32⟩
  | .hbm, ⟨29, _⟩ => ⟨S1000000, .i32⟩
  | .hbm, ⟨30, _⟩ => ⟨S1000000, .i32⟩
  | .hbm, ⟨31, _⟩ => ⟨S1000000x1, .i32⟩
  | .hbm, ⟨32, _⟩ => ⟨S1000000x64, .f32⟩
  | .hbm, ⟨33, _⟩ => ⟨S_, .f32⟩
  | .hbm, ⟨34, _⟩ => ⟨S100000x64, .f32⟩
  | .hbm, ⟨35, _⟩ => ⟨S1000000x1, .i32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S1x64x64, .f32⟩
  | .hbm, ⟨40, _⟩ => ⟨S64x64, .f32⟩
  | .hbm, ⟨41, _⟩ => ⟨S64x64, .f32⟩
  | .hbm, ⟨42, _⟩ => ⟨S100000x64, .f32⟩
  | .hbm, ⟨43, _⟩ => ⟨S1x64, .f32⟩
  | .hbm, ⟨44, _⟩ => ⟨S64, .f32⟩
  | .hbm, ⟨45, _⟩ => ⟨S1x64, .f32⟩
  | .hbm, ⟨46, _⟩ => ⟨S100000x64, .f32⟩
  | .hbm, ⟨47, _⟩ => ⟨S100000x64, .f32⟩
  | .hbm, ⟨48, _⟩ => ⟨S1x64x64, .f32⟩
  | .hbm, ⟨49, _⟩ => ⟨S64x64, .f32⟩
  | .hbm, ⟨50, _⟩ => ⟨S64x64, .f32⟩
  | .hbm, ⟨51, _⟩ => ⟨S100000x64, .f32⟩
  | .hbm, ⟨52, _⟩ => ⟨S100000x64, .f32⟩
  | .hbm, ⟨53, _⟩ => ⟨S_, .f32⟩
  | .hbm, ⟨54, _⟩ => ⟨S100000x64, .f32⟩
  | .hbm, ⟨55, _⟩ => ⟨S100000x64, .f32⟩
  | .hbm, ⟨56, _⟩ => ⟨S_, .i32⟩
  | .hbm, ⟨57, _⟩ => ⟨S1000000, .i32⟩
  | .hbm, ⟨58, _⟩ => ⟨S1000000, .i1⟩
  | .hbm, ⟨59, _⟩ => ⟨S_, .i32⟩
  | .hbm, ⟨60, _⟩ => ⟨S1000000, .i32⟩
  | .hbm, ⟨61, _⟩ => ⟨S1000000, .i32⟩
  | .hbm, ⟨62, _⟩ => ⟨S1000000, .i32⟩
  | .hbm, ⟨63, _⟩ => ⟨S1000000x1, .i32⟩
  | .hbm, ⟨64, _⟩ => ⟨S1000000x64, .f32⟩
  | .hbm, ⟨65, _⟩ => ⟨S_, .f32⟩
  | .hbm, ⟨66, _⟩ => ⟨S100000x64, .f32⟩
  | .hbm, ⟨67, _⟩ => ⟨S1000000x1, .i32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S1x64x64, .f32⟩
  | .hbm, ⟨72, _⟩ => ⟨S64x64, .f32⟩
  | .hbm, ⟨73, _⟩ => ⟨S64x64, .f32⟩
  | .hbm, ⟨74, _⟩ => ⟨S100000x64, .f32⟩
  | .hbm, ⟨75, _⟩ => ⟨S1x64, .f32⟩
  | .hbm, ⟨76, _⟩ => ⟨S64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S1x64x64, .f32⟩
  | .hbm, ⟨81, _⟩ => ⟨S64x64, .f32⟩
  | .hbm, ⟨82, _⟩ => ⟨S64x64, .f32⟩
  | .hbm, ⟨83, _⟩ => ⟨S100000x64, .f32⟩
  | .hbm, ⟨84, _⟩ => ⟨S100000x64, .f32⟩
  | .hbm, ⟨85, _⟩ => ⟨S_, .f32⟩
  | .hbm, ⟨86, _⟩ => ⟨S100000x64, .f32⟩
  | .hbm, ⟨87, _⟩ => ⟨S100000x64, .f32⟩
  | .hbm, ⟨88, _⟩ => ⟨S_, .i32⟩
  | .hbm, ⟨89, _⟩ => ⟨S1000000, .i32⟩
  | .hbm, ⟨90, _⟩ => ⟨S1000000, .i1⟩
  | .hbm, ⟨91, _⟩ => ⟨S_, .i32⟩
  | .hbm, ⟨92, _⟩ => ⟨S1000000, .i32⟩
  | .hbm, ⟨93, _⟩ => ⟨S1000000, .i32⟩
  | .hbm, ⟨94, _⟩ => ⟨S1000000, .i32⟩
  | .hbm, ⟨95, _⟩ => ⟨S1000000x1, .i32⟩
  | .hbm, ⟨96, _⟩ => ⟨S1000000x64, .f32⟩
  | .hbm, ⟨97, _⟩ => ⟨S_, .f32⟩
  | .hbm, ⟨98, _⟩ => ⟨S100000x64, .f32⟩
  | .hbm, ⟨99, _⟩ => ⟨S1000000x1, .i32⟩
  | .hbm, ⟨100, _⟩ => ⟨S100000x64, .f32⟩
  | .hbm, ⟨101, _⟩ => ⟨S100000x64, .f32⟩
  | .hbm, ⟨102, _⟩ => ⟨S100000x64, .f32⟩
  | .hbm, ⟨103, _⟩ => ⟨S1x64x64, .f32⟩
  | .hbm, ⟨104, _⟩ => ⟨S64x64, .f32⟩
  | .hbm, ⟨105, _⟩ => ⟨S64x64, .f32⟩
  | .hbm, ⟨106, _⟩ => ⟨S100000x64, .f32⟩
  | .hbm, ⟨107, _⟩ => ⟨S1x64, .f32⟩
  | .hbm, ⟨108, _⟩ => ⟨S64, .f32⟩
  | .hbm, ⟨109, _⟩ => ⟨S1x64, .f32⟩
  | .hbm, ⟨110, _⟩ => ⟨S100000x64, .f32⟩
  | .hbm, ⟨111, _⟩ => ⟨S100000x64, .f32⟩
  | .hbm, ⟨112, _⟩ => ⟨S1x64x64, .f32⟩
  | .hbm, ⟨113, _⟩ => ⟨S64x64, .f32⟩
  | .hbm, ⟨114, _⟩ => ⟨S64x64, .f32⟩
  | .hbm, ⟨115, _⟩ => ⟨S100000x64, .f32⟩
  | .hbm, ⟨116, _⟩ => ⟨S100000x64, .f32⟩
  | .hbm, ⟨117, _⟩ => ⟨S64x2, .f32⟩
  | .hbm, ⟨118, _⟩ => ⟨S100000x2, .f32⟩
  | .hbm, ⟨119, _⟩ => ⟨S1x2, .f32⟩
  | .hbm, ⟨120, _⟩ => ⟨S100000x2, .f32⟩
  | .hbm, ⟨121, _⟩ => ⟨S100000x2, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_call0_cst : Ref sig .tc := ⟨.hbm, 53, rfl⟩
abbrev main_call0_v0 : Ref sig .tc := ⟨.hbm, 54, rfl⟩
abbrev main_v39 : Ref sig .tc := ⟨.hbm, 55, rfl⟩
abbrev main_c_5 : Ref sig .tc := ⟨.hbm, 56, rfl⟩
abbrev main_v40 : Ref sig .tc := ⟨.hbm, 57, rfl⟩
abbrev main_v41 : Ref sig .tc := ⟨.hbm, 58, rfl⟩
abbrev main_c_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_call1_cst : Ref sig .tc := ⟨.hbm, 85, rfl⟩
abbrev main_call1_v0 : Ref sig .tc := ⟨.hbm, 86, rfl⟩
abbrev main_v66 : Ref sig .tc := ⟨.hbm, 87, rfl⟩
abbrev main_c_8 : Ref sig .tc := ⟨.hbm, 88, rfl⟩
abbrev main_v67 : Ref sig .tc := ⟨.hbm, 89, rfl⟩
abbrev main_v68 : Ref sig .tc := ⟨.hbm, 90, rfl⟩
abbrev main_c_9 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_10 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  transposes_S2x64_S64x2_1_0 : S2x64.Transposes [1, 0] S64x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []
  dot_S100000x64_S64x2_S100000x2_1_0_0_1_n_n_wf : DotDims.WF S100000x64 S64x2 S100000x2 [1] [0] [0] [1] [] []

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.FrameValue.lean ====
/-
  The idealized kernel program's run, with its result buffer read off the last boundary's contents.

  The program is three tiled kernel regions among stretches of host operations. Its run is followed boundary by
  boundary: the buffer contents after the first host stretch, after the first region (its arrays at what the
  region's write-backs leave, every other buffer untouched), after the second stretch, and so on to the contents
  after the third region. Every weakly fair execution terminates, without a fault, in a state whose memory holds
  exactly those last contents at every buffer that outlives a region; in particular the result buffer holds the
  last contents at its reference, and the seven argument buffers hold what they were launched with.
-/
import proofs.«142910_j893353198160_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result buffer at the contents
    of the last boundary and the argument buffers as launched. -/
theorem run_result : θ_run defs (onTc (τ := τ) (main (F := F))) ⟨m, fun _ => 0, ρ⟩ (fun r => ∀ c : Dev nD,
      r.2.mem ((c.tc : Thread nD τ).loc main_v71) = W6 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v71 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.RunValue

end
-- ==== Proof.HostK.lean ====
/-
  What the kernel program's host code hands to each of its three tiled regions.

  Between the regions the host code only moves data: it splits the edge list into its source and destination rows,
  counts the edges arriving at each node and takes the reciprocal of that count (at least one) as a column, stacks
  the transposed weight matrices of the three layers, and before each region gathers the current node features
  along the edges' sources and adds them up at the edges' destinations. Nothing in a later stretch overwrites what an
  earlier stretch computed, and a region writes only its own output array, so every array a region is entered with
  is one of: the edge sum of the previous region's output (or of the input features), that output itself, the
  reciprocal-degree column, the layer's stacked weight matrix and its bias row, and for the last region the
  transposed classifier matrix and the classifier bias row. Each is named here as a function of the launch
  contents of the argument buffers and of the previous region's output array.
-/
import proofs.«142910_j893353198160_2_alg».proof.Proof.Gen.KernelIdeal.Frame
import Idealize.ShloMosaic.PureOps.Ideal
import Idealize.ShloMosaic.Lib.StableHlo.Run

noncomputable section

namespace Cert.Sage.Host

open Cert.KernelIdeal Cert.KernelIdeal.Facts₀ Cert.KernelIdeal.Facts
open Idealize.ShloMosaic Idealize.ShloMosaic.TcCoe Idealize.SL.Sem Idealize.ShloMosaic.StableHlo

/-! ## The host code's values as functions of the arrays they are computed from -/

section Terms
variable (e : (⟨S2x1000000, .i32⟩ : BufTy).Contents (Elt Ideal))

/-- The edges' source nodes. -/
def srcRow : (⟨S1000000, .i32⟩ : BufTy).Contents (Elt Ideal) :=
  shapeCast S1000000 (extractStridedSlice S1x1000000 ![0, 0] e slices_S2x1000000_S1x1000000_0_0) shapeCasts_S1x1000000_S1000000
/-- The edges' destination nodes. -/
def dstRow : (⟨S1000000, .i32⟩ : BufTy).Contents (Elt Ideal) :=
  shapeCast S1000000 (extractStridedSlice S1x1000000 ![1, 0] e slices_S2x1000000_S1x1000000_1_0) shapeCasts_S1x1000000_S1000000
/-- The gather's start indices: a negative source counted from the end, as a column. -/
def srcIdx : (⟨S1000000x1, .i32⟩ : BufTy).Contents (Elt Ideal) :=
  broadcastInDim S1000000x1 ![0] bcast_S1000000_S1000000x1_0
    (select (cmpi .slt (srcRow e) (broadcastInDim S1000000 ![] bcast_S_S1000000 (constantI S_ 32 0#32)))
      (addi (srcRow e) (broadcastInDim S1000000 ![] bcast_S_S1000000 (constantI S_ 32 100000#32))) (srcRow e))
/-- The scatter's indices: the destinations as a column. -/
def dstIdx : (⟨S1000000x1, .i32⟩ : BufTy).Contents (Elt Ideal) :=
  broadcastInDim S1000000x1 ![0] bcast_S1000000_S1000000x1_0 (dstRow e)
/-- The sum, at every node, of the features h of the sources of the edges arriving there. -/
def edgeSum (h : FVec Ideal S100000x64 .f32) : FVec Ideal S100000x64 .f32 :=
  Host.scatterAdd (F := Ideal) scatter_S100000x64_S1000000x1_S1000000x64_1_0_0_1
    (broadcastInDim S100000x64 ![] bcast_S_S100000x64 (constant (F := Ideal) S_ .f32 0x00000000#32)) (dstIdx e)
    (extf (F := Ideal) .f32 (Host.gather gather_S100000x64_S1000000x1_S1000000x64_1_0_n_n_0_1_164
      (truncf (F := Ideal) .bf16 h bitsLt_bf16_f32) (srcIdx e)) bitsLt_bf16_f32)
/-- One over the number of edges arriving at each node, that number taken as at least one. -/
def invRow : FVec Ideal S100000 .f32 :=
  Host.divf (F := Ideal) (broadcastInDim S100000 ![] bcast_S_S100000 (constant (F := Ideal) S_ .f32 0x3F800000#32))
    (maximumf (F := Ideal)
      (Host.scatterAdd (F := Ideal) scatter_S100000_S1000000x1_S1000000_n_0_0_1
        (broadcastInDim S100000 ![] bcast_S_S100000 (constant (F := Ideal) S_ .f32 0x00000000#32)) (dstIdx e)
        (broadcastInDim S1000000 ![] bcast_S_S1000000 (constant (F := Ideal) S_ .f32 0x3F800000#32)))
      (broadcastInDim S100000 ![] bcast_S_S100000 (constant (F := Ideal) S_ .f32 0x3F800000#32)))
/-- The same as a column. -/
def invCol : FVec Ideal S100000x1 .f32 :=
  shapeCast S100000x1 (invRow e) shapeCasts_S100000_S100000x1
end Terms

/-- The two transposed weight arrays side by side. -/
def wcat (wl wr : FVec Ideal S3x64x64 .f32) : FVec Ideal S3x128x64 .bf16 :=
  truncf (F := Ideal) .bf16 (concatenate S3x128x64 1
    [⟨S3x64x64, transpose S3x64x64 [0, 2, 1] wl transposes_S3x64x64_S3x64x64_0_2_1⟩,
     ⟨S3x64x64, transpose S3x64x64 [0, 2, 1] wr transposes_S3x64x64_S3x64x64_0_2_1⟩]
    concatenates_S3x64x64_S3x64x64_S3x128x64_d1) bitsLt_bf16_f32
/-- The bias array with a unit axis in the middle. -/
def bias3 (b : FVec Ideal S3x64 .f32) : FVec Ideal S3x1x64 .f32 :=
  shapeCast S3x1x64 b shapeCasts_S3x64_S3x1x64
/-- The transposed classifier matrix. -/
def woutT (w : FVec Ideal S2x64 .f32) : FVec Ideal S64x2 .bf16 :=
  truncf (F := Ideal) .bf16 (transpose S64x2 [1, 0] w transposes_S2x64_S64x2_1_0) bitsLt_bf16_f32
/-- The classifier bias as a row. -/
def boutRow (b : FVec Ideal S2 .f32) : FVec Ideal S1x2 .f32 :=
  shapeCast S1x2 b shapeCasts_S2_S1x2

open Cert.KernelIdeal.Gen

variable (m : (ℓ : Loc nD τ sig) → Buf (Elt Ideal) ℓ) (ρ : Dev nD → PrngReg) (c : Dev nD)

/-! ## After the first host stretch -/

theorem W1_arg0 : W1 m ρ c (Proc.devRef .tc main_arg0) = m ((c : Thread nD τ).loc main_arg0) := by
  show StableHlo.after hostOps0 (W0 m ρ c) (Proc.devRef .tc main_arg0) = _
  after_results_simp
theorem W1_v1 : W1 m ρ c (Proc.devRef .tc main_v1) = srcRow (m ((c : Thread nD τ).loc main_arg1)) := by
  show StableHlo.after hostOps0 (W0 m ρ c) (Proc.devRef .tc main_v1) = _
  after_results_simp
  rfl
theorem W1_v3 : W1 m ρ c (Proc.devRef .tc main_v3) = dstRow (m ((c : Thread nD τ).loc main_arg1)) := by
  show StableHlo.after hostOps0 (W0 m ρ c) (Proc.devRef .tc main_v3) = _
  after_results_simp
  rfl
theorem W1_v12 : W1 m ρ c (Proc.devRef .tc main_v12) = invCol (m ((c : Thread nD τ).loc main_arg1)) := by
  show StableHlo.after hostOps0 (W0 m ρ c) (Proc.devRef .tc main_v12) = _
  after_results_simp
  rfl
set_option maxHeartbeats 2000000 in
theorem W1_v16 : W1 m ρ c (Proc.devRef .tc main_v16)
    = wcat (m ((c : Thread nD τ).loc main_arg2)) (m ((c : Thread nD τ).loc main_arg4)) := by
  show StableHlo.after hostOps0 (W0 m ρ c) (Proc.devRef .tc main_v16) = _
  after_results
  rfl
theorem W1_v17 : W1 m ρ c (Proc.devRef .tc main_v17) = bias3 (m ((c : Thread nD τ).loc main_arg3)) := by
  show StableHlo.after hostOps0 (W0 m ρ c) (Proc.devRef .tc main_v17) = _
  after_results_simp
  rfl
theorem W1_v19 : W1 m ρ c (Proc.devRef .tc main_v19) = woutT (m ((c : Thread nD τ).loc main_arg5)) := by
  show StableHlo.after hostOps0 (W0 m ρ c) (Proc.devRef .tc main_v19) = _
  after_results_simp
  rfl
theorem W1_v20 : W1 m ρ c (Proc.devRef .tc main_v20) = boutRow (m ((c : Thread nD τ).loc main_arg6)) := by
  show StableHlo.after hostOps0 (W0 m ρ c) (Proc.devRef .tc main_v20) = _
  after_results_simp
  rfl
theorem W1_v32 : W1 m ρ c (Proc.devRef .tc main_v32)
    = edgeSum (m ((c : Thread nD τ).loc main_arg1)) (m ((c : Thread nD τ).loc main_arg0)) := by
  show StableHlo.after hostOps0 (W0 m ρ c) (Proc.devRef .tc main_v32) = _
  after_results_simp
  rfl
set_option maxHeartbeats 2000000 in
theorem W1_v34 : W1 m ρ c (Proc.devRef .tc main_v34)
    = shapeCast S128x64 (extractStridedSlice S1x128x64 ![0, 0, 0]
        (wcat (m ((c : Thread nD τ).loc main_arg2)) (m ((c : Thread nD τ).loc main_arg4))) Facts₀.slices_S3x128x64_S1x128x64_0_0_0)
        Facts₀.shapeCasts_S1x128x64_S128x64 := by
  show StableHlo.after hostOps0 (W0 m ρ c) (Proc.devRef .tc main_v34) = _
  after_results
  rfl
theorem W1_v36 : W1 m ρ c (Proc.devRef .tc main_v36)
    = shapeCast S1x64 (extractStridedSlice S1x1x64 ![0, 0, 0] (bias3 (m ((c : Thread nD τ).loc main_arg3))) Facts₀.slices_S3x1x64_S1x1x64_0_0_0)
        Facts₀.shapeCasts_S1x1x64_S1x64 := by
  show StableHlo.after hostOps0 (W0 m ρ c) (Proc.devRef .tc main_v36) = _
  after_results_simp
  rfl

/-! ## After the first region, and after the second host stretch

The first region writes only its own output array, and the second stretch writes only arrays of its own. -/

theorem W2_v1 : W2 m ρ c (Proc.devRef .tc main_v1) = srcRow (m ((c : Thread nD τ).loc main_arg1)) :=
  (W2_of_ne m ρ c main_v1 (by decide)).trans (W1_v1 m ρ c)
theorem W2_v3 : W2 m ρ c (Proc.devRef .tc main_v3) = dstRow (m ((c : Thread nD τ).loc main_arg1)) :=
  (W2_of_ne m ρ c main_v3 (by decide)).trans (W1_v3 m ρ c)
theorem W2_v12 : W2 m ρ c (Proc.devRef .tc main_v12) = invCol (m ((c : Thread nD τ).loc main_arg1)) :=
  ((W2_arr m ρ c 2).trans (((dat0 (V1 m ρ) c).arrAt_in 2 rfl _).trans (A_eq0 (V1 m ρ) c 2))).trans (W1_v12 m ρ c)
theorem W2_v16 : W2 m ρ c (Proc.devRef .tc main_v16) = wcat (m ((c : Thread nD τ).loc main_arg2)) (m ((c : Thread nD τ).loc main_arg4)) :=
  (W2_of_ne m ρ c main_v16 (by decide)).trans (W1_v16 m ρ c)
theorem W2_v17 : W2 m ρ c (Proc.devRef .tc main_v17) = bias3 (m ((c : Thread nD τ).loc main_arg3)) :=
  (W2_of_ne m ρ c main_v17 (by decide)).trans (W1_v17 m ρ c)
theorem W2_v19 : W2 m ρ c (Proc.devRef .tc main_v19) = woutT (m ((c : Thread nD τ).loc main_arg5)) :=
  (W2_of_ne m ρ c main_v19 (by decide)).trans (W1_v19 m ρ c)
theorem W2_v20 : W2 m ρ c (Proc.devRef .tc main_v20) = boutRow (m ((c : Thread nD τ).loc main_arg6)) :=
  (W2_of_ne m ρ c main_v20 (by decide)).trans (W1_v20 m ρ c)
theorem W3_v1 : W3 m ρ c (Proc.devRef .tc main_v1) = srcRow (m ((c : Thread nD τ).loc main_arg1)) := by
  show StableHlo.after hostOps1 (W2 m ρ c) (Proc.devRef .tc main_v1) = _
  after_results_simp
  exact W2_v1 m ρ c
theorem W3_v3 : W3 m ρ c (Proc.devRef .tc main_v3) = dstRow (m ((c : Thread nD τ).loc main_arg1)) := by
  show StableHlo.after hostOps1 (W2 m ρ c) (Proc.devRef .tc main_v3) = _
  after_results_simp
  exact W2_v3 m ρ c
theorem W3_v12 : W3 m ρ c (Proc.devRef .tc main_v12) = invCol (m ((c : Thread nD τ).loc main_arg1)) := by
  show StableHlo.after hostOps1 (W2 m ρ c) (Proc.devRef .tc main_v12) = _
  after_results_simp
  exact W2_v12 m ρ c
theorem W3_v16 : W3 m ρ c (Proc.devRef .tc main_v16) = wcat (m ((c : Thread nD τ).loc main_arg2)) (m ((c : Thread nD τ).loc main_arg4)) := by
  show StableHlo.after hostOps1 (W2 m ρ c) (Proc.devRef .tc main_v16) = _
  after_results_simp
  exact W2_v16 m ρ c
theorem W3_v17 : W3 m ρ c (Proc.devRef .tc main_v17) = bias3 (m ((c : Thread nD τ).loc main_arg3)) := by
  show StableHlo.after hostOps1 (W2 m ρ c) (Proc.devRef .tc main_v17) = _
  after_results_simp
  exact W2_v17 m ρ c
theorem W3_v19 : W3 m ρ c (Proc.devRef .tc main_v19) = woutT (m ((c : Thread nD τ).loc main_arg5)) := by
  show StableHlo.after hostOps1 (W2 m ρ c) (Proc.devRef .tc main_v19) = _
  after_results_simp
  exact W2_v19 m ρ c
theorem W3_v20 : W3 m ρ c (Proc.devRef .tc main_v20) = boutRow (m ((c : Thread nD τ).loc main_arg6)) := by
  show StableHlo.after hostOps1 (W2 m ρ c) (Proc.devRef .tc main_v20) = _
  after_results_simp
  exact W2_v20 m ρ c
theorem W3_v37 : W3 m ρ c (Proc.devRef .tc main_v37) = W2 m ρ c (Proc.devRef .tc main_v37) := by
  show StableHlo.after hostOps1 (W2 m ρ c) (Proc.devRef .tc main_v37) = _
  after_results_simp
theorem W3_v49 : W3 m ρ c (Proc.devRef .tc main_v49)
    = edgeSum (m ((c : Thread nD τ).loc main_arg1)) (W2 m ρ c (Proc.devRef .tc main_v37)) := by
  show StableHlo.after hostOps1 (W2 m ρ c) (Proc.devRef .tc main_v49) = _
  after_results_simp
  simp only [W2_v1 m ρ c, W2_v3 m ρ c]
  rfl
theorem W3_v51 : W3 m ρ c (Proc.devRef .tc main_v51)
    = shapeCast S128x64 (extractStridedSlice S1x128x64 ![1, 0, 0] (wcat (m ((c : Thread nD τ).loc main_arg2)) (m ((c : Thread nD τ).loc main_arg4))) Facts₀.slices_S3x128x64_S1x128x64_1_0_0)
        Facts₀.shapeCasts_S1x128x64_S128x64 := by
  show StableHlo.after hostOps1 (W2 m ρ c) (Proc.devRef .tc main_v51) = _
  after_results_simp
  simp only [W2_v16 m ρ c]
  rfl
theorem W3_v53 : W3 m ρ c (Proc.devRef .tc main_v53)
    = shapeCast S1x64 (extractStridedSlice S1x1x64 ![1, 0, 0] (bias3 (m ((c : Thread nD τ).loc main_arg3))) Facts₀.slices_S3x1x64_S1x1x64_1_0_0)
        Facts₀.shapeCasts_S1x1x64_S1x64 := by
  show StableHlo.after hostOps1 (W2 m ρ c) (Proc.devRef .tc main_v53) = _
  after_results_simp
  simp only [W2_v17 m ρ c]
  rfl

/-! ## After the second region, and after the third host stretch -/

theorem W4_v1 : W4 m ρ c (Proc.devRef .tc main_v1) = srcRow (m ((c : Thread nD τ).loc main_arg1)) :=
  (W4_of_ne m ρ c main_v1 (by decide)).trans (W3_v1 m ρ c)
theorem W4_v3 : W4 m ρ c (Proc.devRef .tc main_v3) = dstRow (m ((c : Thread nD τ).loc main_arg1)) :=
  (W4_of_ne m ρ c main_v3 (by decide)).trans (W3_v3 m ρ c)
theorem W4_v12 : W4 m ρ c (Proc.devRef .tc main_v12) = invCol (m ((c : Thread nD τ).loc main_arg1)) :=
  ((W4_arr m ρ c 2).trans (((dat1 (V3 m ρ) c).arrAt_in 2 rfl _).trans (A_eq1 (V3 m ρ) c 2))).trans (W3_v12 m ρ c)
theorem W4_v16 : W4 m ρ c (Proc.devRef .tc main_v16) = wcat (m ((c : Thread nD τ).loc main_arg2)) (m ((c : Thread nD τ).loc main_arg4)) :=
  (W4_of_ne m ρ c main_v16 (by decide)).trans (W3_v16 m ρ c)
theorem W4_v17 : W4 m ρ c (Proc.devRef .tc main_v17) = bias3 (m ((c : Thread nD τ).loc main_arg3)) :=
  (W4_of_ne m ρ c main_v17 (by decide)).trans (W3_v17 m ρ c)
theorem W4_v19 : W4 m ρ c (Proc.devRef .tc main_v19) = woutT (m ((c : Thread nD τ).loc main_arg5)) :=
  (W4_of_ne m ρ c main_v19 (by decide)).trans (W3_v19 m ρ c)
theorem W4_v20 : W4 m ρ c (Proc.devRef .tc main_v20) = boutRow (m ((c : Thread nD τ).loc main_arg6)) :=
  (W4_of_ne m ρ c main_v20 (by decide)).trans (W3_v20 m ρ c)
theorem W5_v12 : W5 m ρ c (Proc.devRef .tc main_v12) = invCol (m ((c : Thread nD τ).loc main_arg1)) := by
  show StableHlo.after hostOps2 (W4 m ρ c) (Proc.devRef .tc main_v12) = _
  after_results_simp
  exact W4_v12 m ρ c
theorem W5_v19 : W5 m ρ c (Proc.devRef .tc main_v19) = woutT (m ((c : Thread nD τ).loc main_arg5)) := by
  show StableHlo.after hostOps2 (W4 m ρ c) (Proc.devRef .tc main_v19) = _
  after_results_simp
  exact W4_v19 m ρ c
theorem W5_v20 : W5 m ρ c (Proc.devRef .tc main_v20) = boutRow (m ((c : Thread nD τ).loc main_arg6)) := by
  show StableHlo.after hostOps2 (W4 m ρ c) (Proc.devRef .tc main_v20) = _
  after_results_simp
  exact W4_v20 m ρ c
theorem W5_v54 : W5 m ρ c (Proc.devRef .tc main_v54) = W4 m ρ c (Proc.devRef .tc main_v54) := by
  show StableHlo.after hostOps2 (W4 m ρ c) (Proc.devRef .tc main_v54) = _
  after_results_simp
theorem W5_v66 : W5 m ρ c (Proc.devRef .tc main_v66)
    = edgeSum (m ((c : Thread nD τ).loc main_arg1)) (W4 m ρ c (Proc.devRef .tc main_v54)) := by
  show StableHlo.after hostOps2 (W4 m ρ c) (Proc.devRef .tc main_v66) = _
  after_results_simp
  simp only [W4_v1 m ρ c, W4_v3 m ρ c]
  rfl
theorem W5_v68 : W5 m ρ c (Proc.devRef .tc main_v68)
    = shapeCast S128x64 (extractStridedSlice S1x128x64 ![2, 0, 0] (wcat (m ((c : Thread nD τ).loc main_arg2)) (m ((c : Thread nD τ).loc main_arg4))) Facts₀.slices_S3x128x64_S1x128x64_2_0_0)
        Facts₀.shapeCasts_S1x128x64_S128x64 := by
  show StableHlo.after hostOps2 (W4 m ρ c) (Proc.devRef .tc main_v68) = _
  after_results_simp
  simp only [W4_v16 m ρ c]
  rfl
theorem W5_v70 : W5 m ρ c (Proc.devRef .tc main_v70)
    = shapeCast S1x64 (extractStridedSlice S1x1x64 ![2, 0, 0] (bias3 (m ((c : Thread nD τ).loc main_arg3))) Facts₀.slices_S3x1x64_S1x1x64_2_0_0)
        Facts₀.shapeCasts_S1x1x64_S1x64 := by
  show StableHlo.after hostOps2 (W4 m ρ c) (Proc.devRef .tc main_v70) = _
  after_results_simp
  simp only [W4_v17 m ρ c]
  rfl

end Cert.Sage.Host

end
-- ==== Proof.HostPrep.lean ====
/-
  The weight arrays the kernel's host code prepares, read at one entry.

  Before each tiled region the host code of the kernel transposes the two stacked weight arrays Wl, Wr : [3, 64, 64]
  on their last two axes, lays the two results side by side along axis 1 into one array [3, 128, 64], cuts layer l
  out of it and drops the leading unit axis. Entry (k, q) of the resulting [128, 64] matrix is therefore Wl[l, q, k]
  for k below 64 and Wr[l, q, k - 64] from 64 on. The bias array [3, 64] is viewed as [3, 1, 64], layer l is cut out and
  the leading unit axis dropped: entry (0, q) of the row is b[l, q]. The classifier matrix [2, 64] is transposed:
  entry (k, q) is Wout[q, k]. A vector of N entries reshaped to a column [N, 1] and the same vector broadcast to a
  column are the same column. Each statement is coordinate arithmetic on one index; nothing is enumerated.
-/
import Idealize.ShloMosaic.PureOps.Ideal
import Idealize.ShloMosaic.Lib.ValueIdx
import Idealize.ShloMosaic.Lib.Pipeline.Value

noncomputable section

namespace Cert.Sage.Prep

open Idealize.ShloMosaic Idealize.ShloMosaic.ValueIdx

variable {α : Type}

/-- The stacked matrix of layer l, as the host code builds it from the two weight arrays. -/
def stack (l : Nat) (wl wr : (⟨3, ![3, 64, 64]⟩ : Shape).Idx → α)
    (ht : (⟨3, ![3, 64, 64]⟩ : Shape).Transposes [0, 2, 1] ⟨3, ![3, 64, 64]⟩)
    (hc : Shape.Concatenates [(⟨3, ![3, 64, 64]⟩ : Shape), ⟨3, ![3, 64, 64]⟩] ⟨3, ![3, 128, 64]⟩ (1 : Fin 3))
    (hs : (⟨3, ![3, 128, 64]⟩ : Shape).Slices ![l, 0, 0] ⟨3, ![1, 128, 64]⟩)
    (hr : (⟨3, ![1, 128, 64]⟩ : Shape).ShapeCasts ⟨2, ![128, 64]⟩) : (⟨2, ![128, 64]⟩ : Shape).Idx → α :=
  shapeCast ⟨2, ![128, 64]⟩
    (extractStridedSlice ⟨3, ![1, 128, 64]⟩ ![l, 0, 0]
      (concatenate ⟨3, ![3, 128, 64]⟩ 1
        [⟨⟨3, ![3, 64, 64]⟩, transpose ⟨3, ![3, 64, 64]⟩ [0, 2, 1] wl ht⟩,
         ⟨⟨3, ![3, 64, 64]⟩, transpose ⟨3, ![3, 64, 64]⟩ [0, 2, 1] wr ht⟩] hc) hs) hr

/-- Rows 0..63 of the stacked matrix of layer l are the transposed Wl[l]. -/
theorem stack_left (l : Fin 3) (wl wr : (⟨3, ![3, 64, 64]⟩ : Shape).Idx → α) (ht) (hc) (hs) (hr) (k q : Fin 64) :
    stack l.val wl wr ht hc hs hr (ix2 (Fin.castAdd 64 k) q) = wl (ix3 l q k) := by
  unfold stack
  refine (shapeCast_apply _ hr (ix2 (Fin.castAdd 64 k) q) (ix3 (0 : Fin 1) (Fin.castAdd 64 k) q) ?_).trans ?_
  · rw [Shape.rowMajor_val_three, Shape.rowMajor_val_two]
    show (0 * 128 + k.val) * 64 + q.val = k.val * 64 + q.val
    omega
  refine (extractStridedSlice_apply ![l.val, 0, 0] _ hs (ix3 (0 : Fin 1) (Fin.castAdd 64 k) q)
    (ix3 l (Fin.castAdd 64 k) q) ?_).trans ?_
  · intro a
    match a with
    | ⟨0, _⟩ => show l.val = l.val + 0; omega
    | ⟨1, _⟩ => show k.val = 0 + k.val; omega
    | ⟨2, _⟩ => show q.val = 0 + q.val; omega
  refine (concatenate_pair_apply_left (t := ⟨3, ![3, 128, 64]⟩) (1 : Fin 3) _ _ hc (ix3 l (Fin.castAdd 64 k) q) rfl
    (ix3 l k q) ?_).trans ?_
  · intro b
    match b with
    | ⟨0, _⟩ => rfl
    | ⟨1, _⟩ => rfl
    | ⟨2, _⟩ => rfl
  refine transpose_apply [0, 2, 1] wl ht (ix3 l k q) (ix3 l q k) ?_
  intro b
  match b with
  | ⟨0, _⟩ => rfl
  | ⟨1, _⟩ => rfl
  | ⟨2, _⟩ => rfl

/-- Rows 64..127 of the stacked matrix of layer l are the transposed Wr[l]. -/
theorem stack_right (l : Fin 3) (wl wr : (⟨3, ![3, 64, 64]⟩ : Shape).Idx → α) (ht) (hc) (hs) (hr) (k q : Fin 64) :
    stack l.val wl wr ht hc hs hr (ix2 (Fin.natAdd 64 k) q) = wr (ix3 l q k) := by
  unfold stack
  refine (shapeCast_apply _ hr (ix2 (Fin.natAdd 64 k) q) (ix3 (0 : Fin 1) (Fin.natAdd 64 k) q) ?_).trans ?_
  · rw [Shape.rowMajor_val_three, Shape.rowMajor_val_two]
    show (0 * 128 + (64 + k.val)) * 64 + q.val = (64 + k.val) * 64 + q.val
    omega
  refine (extractStridedSlice_apply ![l.val, 0, 0] _ hs (ix3 (0 : Fin 1) (Fin.natAdd 64 k) q)
    (ix3 l (Fin.natAdd 64 k) q) ?_).trans ?_
  · intro a
    match a with
    | ⟨0, _⟩ => show l.val = l.val + 0; omega
    | ⟨1, _⟩ => show 64 + k.val = 0 + (64 + k.val); omega
    | ⟨2, _⟩ => show q.val = 0 + q.val; omega
  refine (concatenate_pair_apply_right (t := ⟨3, ![3, 128, 64]⟩) (1 : Fin 3) _ _ hc (ix3 l (Fin.natAdd 64 k) q) rfl rfl
    (ix3 l k q) ?_ ?_).trans ?_
  · intro b hb
    match b, hb with
    | ⟨0, _⟩, _ => rfl
    | ⟨1, _⟩, hb => exact absurd rfl hb
    | ⟨2, _⟩, _ => rfl
  · show k.val + 64 = 64 + k.val
    omega
  refine transpose_apply [0, 2, 1] wr ht (ix3 l k q) (ix3 l q k) ?_
  intro b
  match b with
  | ⟨0, _⟩ => rfl
  | ⟨1, _⟩ => rfl
  | ⟨2, _⟩ => rfl

/-- The bias row of layer l, as the host code builds it. -/
def biasRow (l : Nat) (b : (⟨2, ![3, 64]⟩ : Shape).Idx → α)
    (h1 : (⟨2, ![3, 64]⟩ : Shape).ShapeCasts ⟨3, ![3, 1, 64]⟩)
    (hs : (⟨3, ![3, 1, 64]⟩ : Shape).Slices ![l, 0, 0] ⟨3, ![1, 1, 64]⟩)
    (h2 : (⟨3, ![1, 1, 64]⟩ : Shape).ShapeCasts ⟨2, ![1, 64]⟩) : (⟨2, ![1, 64]⟩ : Shape).Idx → α :=
  shapeCast ⟨2, ![1, 64]⟩ (extractStridedSlice ⟨3, ![1, 1, 64]⟩ ![l, 0, 0] (shapeCast ⟨3, ![3, 1, 64]⟩ b h1) hs) h2

/-- Entry (0, q) of the bias row of layer l is b[l, q]. -/
theorem biasRow_apply (l : Fin 3) (b : (⟨2, ![3, 64]⟩ : Shape).Idx → α) (h1) (hs) (h2) (q : Fin 64) :
    biasRow l.val b h1 hs h2 (ix2 (0 : Fin 1) q) = b (ix2 l q) := by
  unfold biasRow
  refine (shapeCast_apply _ h2 (ix2 (0 : Fin 1) q) (ix3 (0 : Fin 1) (0 : Fin 1) q) ?_).trans ?_
  · rw [Shape.rowMajor_val_three, Shape.rowMajor_val_two]
    show (0 * 1 + 0) * 64 + q.val = 0 * 64 + q.val
    omega
  refine (extractStridedSlice_apply ![l.val, 0, 0] _ hs (ix3 (0 : Fin 1) (0 : Fin 1) q) (ix3 l (0 : Fin 1) q) ?_).trans ?_
  · intro a
    match a with
    | ⟨0, _⟩ => show l.val = l.val + 0; omega
    | ⟨1, _⟩ => show 0 = 0 + 0; omega
    | ⟨2, _⟩ => show q.val = 0 + q.val; omega
  refine shapeCast_apply b h1 (ix3 l (0 : Fin 1) q) (ix2 l q) ?_
  rw [Shape.rowMajor_val_three, Shape.rowMajor_val_two]
  show l.val * 64 + q.val = (l.val * 1 + 0) * 64 + q.val
  omega

/-- The transposed classifier matrix: entry (k, q) is Wout[q, k]. -/
theorem transpose_pair_apply (w : (⟨2, ![2, 64]⟩ : Shape).Idx → α)
    (ht : (⟨2, ![2, 64]⟩ : Shape).Transposes [1, 0] ⟨2, ![64, 2]⟩) (k : Fin 64) (q : Fin 2) :
    transpose ⟨2, ![64, 2]⟩ [1, 0] w ht (ix2 k q) = w (ix2 q k) := by
  refine transpose_apply [1, 0] w ht (ix2 k q) (ix2 q k) ?_
  intro b
  match b with
  | ⟨0, _⟩ => rfl
  | ⟨1, _⟩ => rfl

/-- A vector of C entries reshaped to one row [1, C]: entry (0, q) is entry q. -/
theorem reshape_row_apply {C : Nat} (x : (⟨1, ![C]⟩ : Shape).Idx → α) (h : (⟨1, ![C]⟩ : Shape).ShapeCasts ⟨2, ![1, C]⟩)
    (q : Fin C) : shapeCast ⟨2, ![1, C]⟩ x h (ix2 (0 : Fin 1) q) = x (ix1 q) := by
  refine shapeCast_apply x h (ix2 (0 : Fin 1) q) (ix1 q) ?_
  rw [Shape.rowMajor_val_one, Shape.rowMajor_val_two]
  show q.val = 0 * C + q.val
  omega

/-- A vector of N entries reshaped to a column [N, 1] is the vector broadcast to that column. -/
theorem reshape_col_eq_bcast {N : Nat} (x : (⟨1, ![N]⟩ : Shape).Idx → α) (h : (⟨1, ![N]⟩ : Shape).ShapeCasts ⟨2, ![N, 1]⟩)
    (hb : (⟨1, ![N]⟩ : Shape).BroadcastsInDim ⟨2, ![N, 1]⟩ (![0] : Fin 1 → Fin 2)) :
    shapeCast ⟨2, ![N, 1]⟩ x h = broadcastInDim ⟨2, ![N, 1]⟩ ![0] hb x := by
  funext j
  obtain ⟨n, z, rfl⟩ : ∃ (n : Fin N) (z : Fin 1), j = ix2 n z := ⟨j 0, j 1, eq_ix2 j⟩
  have e1 : shapeCast ⟨2, ![N, 1]⟩ x h (ix2 n z) = x (ix1 n) := by
    refine shapeCast_apply x h (ix2 n z) (ix1 n) ?_
    rw [Shape.rowMajor_val_one, Shape.rowMajor_val_two]
    have hz : z.val = 0 := by have := z.isLt; omega
    show n.val = n.val * 1 + z.val
    omega
  have e2 : broadcastInDim ⟨2, ![N, 1]⟩ ![0] hb x (ix2 n z) = x (ix1 n) := by
    refine broadcastInDim_apply ![0] hb x (ix2 n z) (ix1 n) ?_
    intro a
    match a with
    | ⟨0, _⟩ =>
      show n.val = if N = 1 then 0 else n.val
      have := n.isLt
      split <;> omega
  rw [e1, e2]

end Cert.Sage.Prep

end
-- ==== Proof.Entry.lean ====
/-
  One GraphSAGE combine step, entry by entry, in the two arrangements the two programs use.

  For a node r and an output feature q, with a the summed neighbour features, d the reciprocal degree (one
  column), h the node's own features, the step computes

      sum_k (a[r,k] * d[r]) * Wl[q,k]  +  b[q]  +  sum_k h[r,k] * Wr[q,k].

  The reference adds the three terms in this order, reading the layer's two 64x64 weight matrices transposed.
  The kernel lays the scaled neighbour row and the own row side by side (128 entries), multiplies by ONE
  stacked 128x64 matrix whose first 64 rows are the transposed Wl and whose last 64 rows the transposed Wr, and
  adds the bias last. A sum over 128 positions is the sum over the first 64 plus the sum over the last 64, and
  (x + y) + b = (x + b) + y in any commutative monoid, so the two arrangements agree on the extended reals with
  no finiteness assumption: no product is distributed and nothing is cancelled.
-/
import Idealize.ShloMosaic.PureOps.Ideal
import Idealize.ShloMosaic.Lib.ValueIdx

noncomputable section

open scoped BigOperators

namespace Cert.Sage

open Idealize.ShloMosaic Idealize.ShloMosaic.ValueIdx

/-- The reference's arrangement of one combine step at node r, feature q, for layer l of stacked weights
    Wl, Wr : [3, 64, 64] (read transposed: entry (l, q, k)) and biases b : [3, 64]. -/
def refEntry (a h : (⟨2, ![100000, 64]⟩ : Shape).Idx → EReal) (d : (⟨2, ![100000, 1]⟩ : Shape).Idx → EReal)
    (wl wr : (⟨3, ![3, 64, 64]⟩ : Shape).Idx → EReal) (b : (⟨2, ![3, 64]⟩ : Shape).Idx → EReal)
    (l : Fin 3) (r : Fin 100000) (q : Fin 64) : EReal :=
  ((∑ k : Fin 64, (a (ix2 r k) * d (ix2 r (0 : Fin 1))) * wl (ix3 l q k)) + b (ix2 l q))
    + ∑ k : Fin 64, h (ix2 r k) * wr (ix3 l q k)

/-- The kernel's arrangement at node r, feature q: the scaled neighbour row against the first 64 rows of the
    stacked matrix w : [128, 64], the own row against its last 64 rows, then the bias row b : [1, 64]. -/
def kerEntry (a h : (⟨2, ![100000, 64]⟩ : Shape).Idx → EReal) (d : (⟨2, ![100000, 1]⟩ : Shape).Idx → EReal)
    (w : (⟨2, ![128, 64]⟩ : Shape).Idx → EReal) (b : (⟨2, ![1, 64]⟩ : Shape).Idx → EReal)
    (r : Fin 100000) (q : Fin 64) : EReal :=
  ((∑ k : Fin 64, (a (ix2 r k) * d (ix2 r (0 : Fin 1))) * w (ix2 (Fin.castAdd 64 k) q))
      + ∑ k : Fin 64, h (ix2 r k) * w (ix2 (Fin.natAdd 64 k) q))
    + b (ix2 (0 : Fin 1) q)

/-- The two arrangements agree once the stacked matrix and the bias row are what the kernel's host code builds
    from the layer's weights: rows 0..63 the transposed Wl, rows 64..127 the transposed Wr, the bias row b[l]. -/
theorem kerEntry_eq_refEntry (a h : (⟨2, ![100000, 64]⟩ : Shape).Idx → EReal)
    (d : (⟨2, ![100000, 1]⟩ : Shape).Idx → EReal)
    (wl wr : (⟨3, ![3, 64, 64]⟩ : Shape).Idx → EReal) (b : (⟨2, ![3, 64]⟩ : Shape).Idx → EReal)
    (w : (⟨2, ![128, 64]⟩ : Shape).Idx → EReal) (b1 : (⟨2, ![1, 64]⟩ : Shape).Idx → EReal) (l : Fin 3)
    (hwl : ∀ (k q : Fin 64), w (ix2 (Fin.castAdd 64 k) q) = wl (ix3 l q k))
    (hwr : ∀ (k q : Fin 64), w (ix2 (Fin.natAdd 64 k) q) = wr (ix3 l q k))
    (hb : ∀ q : Fin 64, b1 (ix2 (0 : Fin 1) q) = b (ix2 l q))
    (r : Fin 100000) (q : Fin 64) :
    kerEntry a h d w b1 r q = refEntry a h d wl wr b l r q := by
  unfold kerEntry refEntry
  rw [hb q]
  simp only [hwl, hwr]
  exact add_right_comm _ _ _

end Cert.Sage

end
-- ==== Proof.Steps.lean ====
/-
  From entries to arrays: one layer of the two programs computes the same array.

  If an array holds, at every node r and feature q, the kernel's arrangement of a combine step (followed or not
  by the larger-of-zero), another array holds the reference's arrangement, the arrays the two steps read are
  equal, and the kernel's stacked matrix and bias row are built from the layer's weights, then the two arrays
  are equal: every index of a [100000, 64] array is a pair (r, q). The last layer multiplies the step's row by the
  transposed classifier matrix and adds the classifier bias on both sides; the sums then agree term by term.
-/
import proofs.«142910_j893353198160_2_alg».proof.Proof.Entry

noncomputable section

open scoped BigOperators

namespace Cert.Sage

open Idealize.ShloMosaic Idealize.ShloMosaic.ValueIdx

/-- A layer followed by the larger-of-zero (zero being any fixed extended real z). -/
theorem step_relu (z : EReal) (l : Fin 3)
    (arr ref : (⟨2, ![100000, 64]⟩ : Shape).Idx → EReal)
    (a h a' h' : (⟨2, ![100000, 64]⟩ : Shape).Idx → EReal) (d d' : (⟨2, ![100000, 1]⟩ : Shape).Idx → EReal)
    (w : (⟨2, ![128, 64]⟩ : Shape).Idx → EReal) (b1 : (⟨2, ![1, 64]⟩ : Shape).Idx → EReal)
    (wl wr : (⟨3, ![3, 64, 64]⟩ : Shape).Idx → EReal) (b : (⟨2, ![3, 64]⟩ : Shape).Idx → EReal)
    (hK : ∀ (r : Fin 100000) (q : Fin 64), arr (ix2 r q) = max (kerEntry a h d w b1 r q) z)
    (hR : ∀ (r : Fin 100000) (q : Fin 64), ref (ix2 r q) = max (refEntry a' h' d' wl wr b l r q) z)
    (ha : a = a') (hh : h = h') (hd : d = d')
    (hwl : ∀ (k q : Fin 64), w (ix2 (Fin.castAdd 64 k) q) = wl (ix3 l q k))
    (hwr : ∀ (k q : Fin 64), w (ix2 (Fin.natAdd 64 k) q) = wr (ix3 l q k))
    (hb : ∀ q : Fin 64, b1 (ix2 (0 : Fin 1) q) = b (ix2 l q)) : arr = ref := by
  funext j
  obtain ⟨r, q, rfl⟩ : ∃ (r : Fin 100000) (q : Fin 64), j = ix2 r q := ⟨j 0, j 1, eq_ix2 j⟩
  subst ha hh hd
  rw [hK r q, hR r q, kerEntry_eq_refEntry a h d wl wr b w b1 l hwl hwr hb r q]

/-- The last layer: a combine step without the larger-of-zero, then the classifier. -/
theorem step_out (l : Fin 3)
    (arr ref : (⟨2, ![100000, 2]⟩ : Shape).Idx → EReal)
    (h3 : (⟨2, ![100000, 64]⟩ : Shape).Idx → EReal)
    (a h a' h' : (⟨2, ![100000, 64]⟩ : Shape).Idx → EReal) (d d' : (⟨2, ![100000, 1]⟩ : Shape).Idx → EReal)
    (w : (⟨2, ![128, 64]⟩ : Shape).Idx → EReal) (b1 : (⟨2, ![1, 64]⟩ : Shape).Idx → EReal)
    (wl wr : (⟨3, ![3, 64, 64]⟩ : Shape).Idx → EReal) (b : (⟨2, ![3, 64]⟩ : Shape).Idx → EReal)
    (wo : (⟨2, ![64, 2]⟩ : Shape).Idx → EReal) (bo : (⟨2, ![1, 2]⟩ : Shape).Idx → EReal)
    (x5 : (⟨2, ![2, 64]⟩ : Shape).Idx → EReal) (x6 : (⟨1, ![2]⟩ : Shape).Idx → EReal)
    (hK : ∀ (r : Fin 100000) (q : Fin 2),
      arr (ix2 r q) = (∑ k : Fin 64, kerEntry a h d w b1 r k * wo (ix2 k q)) + bo (ix2 (0 : Fin 1) q))
    (hR : ∀ (r : Fin 100000) (q : Fin 2), ref (ix2 r q) = (∑ k : Fin 64, h3 (ix2 r k) * x5 (ix2 q k)) + x6 (ix1 q))
    (h3e : ∀ (r : Fin 100000) (k : Fin 64), h3 (ix2 r k) = refEntry a' h' d' wl wr b l r k)
    (ha : a = a') (hh : h = h') (hd : d = d')
    (hwl : ∀ (k q : Fin 64), w (ix2 (Fin.castAdd 64 k) q) = wl (ix3 l q k))
    (hwr : ∀ (k q : Fin 64), w (ix2 (Fin.natAdd 64 k) q) = wr (ix3 l q k))
    (hb : ∀ q : Fin 64, b1 (ix2 (0 : Fin 1) q) = b (ix2 l q))
    (hwo : ∀ (k : Fin 64) (q : Fin 2), wo (ix2 k q) = x5 (ix2 q k))
    (hbo : ∀ q : Fin 2, bo (ix2 (0 : Fin 1) q) = x6 (ix1 q)) : arr = ref := by
  funext j
  obtain ⟨r, q, rfl⟩ : ∃ (r : Fin 100000) (q : Fin 2), j = ix2 r q := ⟨j 0, j 1, eq_ix2 j⟩
  subst ha hh hd
  rw [hK r q, hR r q, hbo q]
  refine congrArg (· + x6 (ix1 q)) (Finset.sum_congr rfl fun k _ => ?_)
  rw [h3e r k, hwo k q, kerEntry_eq_refEntry a h d wl wr b w b1 l hwl hwr hb r k]

end Cert.Sage

end
-- ==== Proof.RefEntries.lean ====
/-
  The reference GraphSAGE program, read one entry at a time.

  Each of its three layers computes, for a node r and an output feature q,

      sum_k (a[r,k] * d[r]) * Wl[l,q,k]  +  bl[l,q]  +  sum_k h[r,k] * Wr[l,q,k],

  where a is the sum of the neighbours' features, d the reciprocal degree (one column, broadcast along the 64
  features) and h the node's own features; the first two layers then take the larger of this value and zero.
  The 64x64 matrix a layer multiplies by is a slice of the stacked weights, reshaped and transposed, so its entry
  (k, q) is the stack's entry (l, q, k); the bias row is a slice of the stacked biases broadcast along the nodes.
  The output layer is sum_k h3[r,k] * Wout[q,k] + bout[q]. The neighbour sums themselves are never opened here:
  each layer's statement carries them as the array the program computes.
-/
import proofs.«142910_j893353198160_2_alg».proof.Proof.Entry
import proofs.«142910_j893353198160_2_alg».proof.Proof.Gen.ReferenceIdeal.Read

noncomputable section

open scoped BigOperators

namespace Cert.Sage.Ref

open Cert.ReferenceIdeal Cert.ReferenceIdeal.Read Cert.Sage Idealize.ShloMosaic Idealize.ShloMosaic.ValueIdx

variable (x0 : (⟨S100000x64, .f32⟩ : BufTy).Contents (Elt Ideal))
  (x1 : (⟨S2x1000000, .i32⟩ : BufTy).Contents (Elt Ideal))
  (x2 : (⟨S3x64x64, .f32⟩ : BufTy).Contents (Elt Ideal))
  (x3 : (⟨S3x64, .f32⟩ : BufTy).Contents (Elt Ideal))
  (x4 : (⟨S3x64x64, .f32⟩ : BufTy).Contents (Elt Ideal))
  (x5 : (⟨S2x64, .f32⟩ : BufTy).Contents (Elt Ideal))
  (x6 : (⟨S2, .f32⟩ : BufTy).Contents (Elt Ideal))

/-! ## Layer 0 -/

/-- The first 64x64 slice of Wl, reshaped and transposed: entry (k, q) is Wl[0, q, k]. -/
theorem wlT0 (k q : Fin 64) : val_main_v27 (F := Ideal) x2 (ix2 k q) = x2 (ix3 (0 : Fin 3) q k) := by
  rw [val_main_v27_apply, val_main_v26_apply, val_main_v25_apply]
  refine congrArg x2 (funext fun a => Fin.ext ?_)
  match a with
  | ⟨0, _⟩ => rfl
  | ⟨1, _⟩ =>
    show (q.val * 64 + k.val) / 64 % 64 = q.val
    have := q.isLt; have := k.isLt; omega
  | ⟨2, _⟩ =>
    show (q.val * 64 + k.val) % 64 = k.val
    have := q.isLt; have := k.isLt; omega

/-- The first 64x64 slice of Wr, reshaped and transposed: entry (k, q) is Wr[0, q, k]. -/
theorem wrT0 (k q : Fin 64) : val_main_v36 (F := Ideal) x4 (ix2 k q) = x4 (ix3 (0 : Fin 3) q k) := by
  rw [val_main_v36_apply, val_main_v35_apply, val_main_v34_apply]
  refine congrArg x4 (funext fun a => Fin.ext ?_)
  match a with
  | ⟨0, _⟩ => rfl
  | ⟨1, _⟩ =>
    show (q.val * 64 + k.val) / 64 % 64 = q.val
    have := q.isLt; have := k.isLt; omega
  | ⟨2, _⟩ =>
    show (q.val * 64 + k.val) % 64 = k.val
    have := q.isLt; have := k.isLt; omega

/-- The first bias row, broadcast along the nodes: entry (r, q) is bl[0, q]. -/
theorem bias0 (r : Fin 100000) (q : Fin 64) :
    val_main_v32 (F := Ideal) x3 (ix2 r q) = x3 (ix2 (0 : Fin 3) q) := by
  rw [val_main_v32_apply, val_main_v31_apply, val_main_v30_apply, val_main_v29_apply]
  refine congrArg x3 (funext fun a => Fin.ext ?_)
  match a with
  | ⟨0, _⟩ => rfl
  | ⟨1, _⟩ =>
    show q.val % 64 = q.val
    exact Nat.mod_eq_of_lt q.isLt

/-- The mean aggregation: the summed neighbour features times the reciprocal degree of the node, the one column
    of reciprocal degrees broadcast along the 64 features. -/
theorem agg0 (r : Fin 100000) (k : Fin 64) :
    val_main_v24 (F := Ideal) x0 x1 (ix2 r k)
      = val_main_v22 (F := Ideal) x0 x1 (ix2 r k) * val_main_v12 (F := Ideal) x1 (ix2 r (0 : Fin 1)) := by
  have e : idx_main_v23 (ix2 r k) = ix2 r (0 : Fin 1) :=
    funext fun a => by match a with | ⟨0, _⟩ => rfl | ⟨1, _⟩ => rfl
  rw [val_main_v24_apply, val_main_v23_apply, e]
  rfl

/-- The combine step of layer 0 before its activation: agg @ Wl[0].T + bl[0] + h @ Wr[0].T at entry (r, q). -/
theorem pre0 (r : Fin 100000) (q : Fin 64) :
    val_main_v38 (F := Ideal) x0 x1 x2 x3 x4 (ix2 r q)
      = refEntry (val_main_v22 (F := Ideal) x0 x1) x0 (val_main_v12 (F := Ideal) x1) x2 x4 x3 0 r q := by
  rw [val_main_v38_apply, val_main_v33_apply, val_main_v28_apply, val_main_v37_apply, bias0]
  unfold refEntry
  rw [Ideal.addf_def, Ideal.addf_def]
  refine congrArg₂ (· + ·) (congrArg (· + x3 (ix2 (0 : Fin 3) q)) (Finset.sum_congr rfl fun k _ => ?_))
    (Finset.sum_congr rfl fun k _ => ?_)
  · have el : lidx_main_v28 (ix2 r q) k = ix2 r k :=
      funext fun a => by match a with | ⟨0, _⟩ => rfl | ⟨1, _⟩ => rfl
    have er : ridx_main_v28 (ix2 r q) k = ix2 k q :=
      funext fun a => by match a with | ⟨0, _⟩ => rfl | ⟨1, _⟩ => rfl
    rw [el, er, agg0, wlT0]
  · have el : lidx_main_v37 (ix2 r q) k = ix2 r k :=
      funext fun a => by match a with | ⟨0, _⟩ => rfl | ⟨1, _⟩ => rfl
    have er : ridx_main_v37 (ix2 r q) k = ix2 k q :=
      funext fun a => by match a with | ⟨0, _⟩ => rfl | ⟨1, _⟩ => rfl
    rw [el, er, wrT0]

/-- Layer 0 with its activation: the first hidden features are the combine step's value or zero, whichever is larger. -/
theorem h1_entry (r : Fin 100000) (q : Fin 64) :
    val_main_v39 (F := Ideal) x0 x1 x2 x3 x4 (ix2 r q)
      = max (refEntry (val_main_v22 (F := Ideal) x0 x1) x0 (val_main_v12 (F := Ideal) x1) x2 x4 x3 0 r q)
          (Ideal.ofBits .f32 0x00000000#32) := by
  rw [val_main_v39_apply, val_main_call0_v0_apply, val_main_call0_cst_apply, Ideal.maximumf_def, Ideal.ofBits_def,
    pre0]

/-! ## Layer 1 -/

/-- The second 64x64 slice of Wl, reshaped and transposed: entry (k, q) is Wl[1, q, k]. -/
theorem wlT1 (k q : Fin 64) : val_main_v54 (F := Ideal) x2 (ix2 k q) = x2 (ix3 (1 : Fin 3) q k) := by
  rw [val_main_v54_apply, val_main_v53_apply, val_main_v52_apply]
  refine congrArg x2 (funext fun a => Fin.ext ?_)
  match a with
  | ⟨0, _⟩ => rfl
  | ⟨1, _⟩ =>
    show (q.val * 64 + k.val) / 64 % 64 = q.val
    have := q.isLt; have := k.isLt; omega
  | ⟨2, _⟩ =>
    show (q.val * 64 + k.val) % 64 = k.val
    have := q.isLt; have := k.isLt; omega

/-- The second 64x64 slice of Wr, reshaped and transposed: entry (k, q) is Wr[1, q, k]. -/
theorem wrT1 (k q : Fin 64) : val_main_v63 (F := Ideal) x4 (ix2 k q) = x4 (ix3 (1 : Fin 3) q k) := by
  rw [val_main_v63_apply, val_main_v62_apply, val_main_v61_apply]
  refine congrArg x4 (funext fun a => Fin.ext ?_)
  match a with
  | ⟨0, _⟩ => rfl
  | ⟨1, _⟩ =>
    show (q.val * 64 + k.val) / 64 % 64 = q.val
    have := q.isLt; have := k.isLt; omega
  | ⟨2, _⟩ =>
    show (q.val * 64 + k.val) % 64 = k.val
    have := q.isLt; have := k.isLt; omega

/-- The second bias row, broadcast along the nodes: entry (r, q) is bl[1, q]. -/
theorem bias1 (r : Fin 100000) (q : Fin 64) :
    val_main_v59 (F := Ideal) x3 (ix2 r q) = x3 (ix2 (1 : Fin 3) q) := by
  rw [val_main_v59_apply, val_main_v58_apply, val_main_v57_apply, val_main_v56_apply]
  refine congrArg x3 (funext fun a => Fin.ext ?_)
  match a with
  | ⟨0, _⟩ => rfl
  | ⟨1, _⟩ =>
    show q.val % 64 = q.val
    exact Nat.mod_eq_of_lt q.isLt

/-- The mean aggregation: the summed neighbour features times the reciprocal degree of the node, the one column
    of reciprocal degrees broadcast along the 64 features. -/
theorem agg1 (r : Fin 100000) (k : Fin 64) :
    val_main_v51 (F := Ideal) x0 x1 x2 x3 x4 (ix2 r k)
      = val_main_v49 (F := Ideal) x0 x1 x2 x3 x4 (ix2 r k) * val_main_v12 (F := Ideal) x1 (ix2 r (0 : Fin 1)) := by
  have e : idx_main_v50 (ix2 r k) = ix2 r (0 : Fin 1) :=
    funext fun a => by match a with | ⟨0, _⟩ => rfl | ⟨1, _⟩ => rfl
  rw [val_main_v51_apply, val_main_v50_apply, e]
  rfl

/-- The combine step of layer 1 before its activation: agg @ Wl[1].T + bl[1] + h @ Wr[1].T at entry (r, q). -/
theorem pre1 (r : Fin 100000) (q : Fin 64) :
    val_main_v65 (F := Ideal) x0 x1 x2 x3 x4 (ix2 r q)
      = refEntry (val_main_v49 (F := Ideal) x0 x1 x2 x3 x4) (val_main_v39 (F := Ideal) x0 x1 x2 x3 x4) (val_main_v12 (F := Ideal) x1) x2 x4 x3 1 r q := by
  rw [val_main_v65_apply, val_main_v60_apply, val_main_v55_apply, val_main_v64_apply, bias1]
  unfold refEntry
  rw [Ideal.addf_def, Ideal.addf_def]
  refine congrArg₂ (· + ·) (congrArg (· + x3 (ix2 (1 : Fin 3) q)) (Finset.sum_congr rfl fun k _ => ?_))
    (Finset.sum_congr rfl fun k _ => ?_)
  · have el : lidx_main_v55 (ix2 r q) k = ix2 r k :=
      funext fun a => by match a with | ⟨0, _⟩ => rfl | ⟨1, _⟩ => rfl
    have er : ridx_main_v55 (ix2 r q) k = ix2 k q :=
      funext fun a => by match a with | ⟨0, _⟩ => rfl | ⟨1, _⟩ => rfl
    rw [el, er, agg1, wlT1]
  · have el : lidx_main_v64 (ix2 r q) k = ix2 r k :=
      funext fun a => by match a with | ⟨0, _⟩ => rfl | ⟨1, _⟩ => rfl
    have er : ridx_main_v64 (ix2 r q) k = ix2 k q :=
      funext fun a => by match a with | ⟨0, _⟩ => rfl | ⟨1, _⟩ => rfl
    rw [el, er, wrT1]

/-- Layer 1 with its activation. -/
theorem h2_entry (r : Fin 100000) (q : Fin 64) :
    val_main_v66 (F := Ideal) x0 x1 x2 x3 x4 (ix2 r q)
      = max (refEntry (val_main_v49 (F := Ideal) x0 x1 x2 x3 x4) (val_main_v39 (F := Ideal) x0 x1 x2 x3 x4)
          (val_main_v12 (F := Ideal) x1) x2 x4 x3 1 r q) (Ideal.ofBits .f32 0x00000000#32) := by
  rw [val_main_v66_apply, val_main_call1_v0_apply, val_main_call1_cst_apply, Ideal.maximumf_def, Ideal.ofBits_def,
    pre1]

/-! ## Layer 2 -/

/-- The third 64x64 slice of Wl, reshaped and transposed: entry (k, q) is Wl[2, q, k]. -/
theorem wlT2 (k q : Fin 64) : val_main_v81 (F := Ideal) x2 (ix2 k q) = x2 (ix3 (2 : Fin 3) q k) := by
  rw [val_main_v81_apply, val_main_v80_apply, val_main_v79_apply]
  refine congrArg x2 (funext fun a => Fin.ext ?_)
  match a with
  | ⟨0, _⟩ => rfl
  | ⟨1, _⟩ =>
    show (q.val * 64 + k.val) / 64 % 64 = q.val
    have := q.isLt; have := k.isLt; omega
  | ⟨2, _⟩ =>
    show (q.val * 64 + k.val) % 64 = k.val
    have := q.isLt; have := k.isLt; omega

/-- The third 64x64 slice of Wr, reshaped and transposed: entry (k, q) is Wr[2, q, k]. -/
theorem wrT2 (k q : Fin 64) : val_main_v90 (F := Ideal) x4 (ix2 k q) = x4 (ix3 (2 : Fin 3) q k) := by
  rw [val_main_v90_apply, val_main_v89_apply, val_main_v88_apply]
  refine congrArg x4 (funext fun a => Fin.ext ?_)
  match a with
  | ⟨0, _⟩ => rfl
  | ⟨1, _⟩ =>
    show (q.val * 64 + k.val) / 64 % 64 = q.val
    have := q.isLt; have := k.isLt; omega
  | ⟨2, _⟩ =>
    show (q.val * 64 + k.val) % 64 = k.val
    have := q.isLt; have := k.isLt; omega

/-- The third bias row, broadcast along the nodes: entry (r, q) is bl[2, q]. -/
theorem bias2 (r : Fin 100000) (q : Fin 64) :
    val_main_v86 (F := Ideal) x3 (ix2 r q) = x3 (ix2 (2 : Fin 3) q) := by
  rw [val_main_v86_apply, val_main_v85_apply, val_main_v84_apply, val_main_v83_apply]
  refine congrArg x3 (funext fun a => Fin.ext ?_)
  match a with
  | ⟨0, _⟩ => rfl
  | ⟨1, _⟩ =>
    show q.val % 64 = q.val
    exact Nat.mod_eq_of_lt q.isLt

/-- The mean aggregation: the summed neighbour features times the reciprocal degree of the node, the one column
    of reciprocal degrees broadcast along the 64 features. -/
theorem agg2 (r : Fin 100000) (k : Fin 64) :
    val_main_v78 (F := Ideal) x0 x1 x2 x3 x4 (ix2 r k)
      = val_main_v76 (F := Ideal) x0 x1 x2 x3 x4 (ix2 r k) * val_main_v12 (F := Ideal) x1 (ix2 r (0 : Fin 1)) := by
  have e : idx_main_v77 (ix2 r k) = ix2 r (0 : Fin 1) :=
    funext fun a => by match a with | ⟨0, _⟩ => rfl | ⟨1, _⟩ => rfl
  rw [val_main_v78_apply, val_main_v77_apply, e]
  rfl

/-- The combine step of layer 2 before its activation: agg @ Wl[2].T + bl[2] + h @ Wr[2].T at entry (r, q). -/
theorem pre2 (r : Fin 100000) (q : Fin 64) :
    val_main_v92 (F := Ideal) x0 x1 x2 x3 x4 (ix2 r q)
      = refEntry (val_main_v76 (F := Ideal) x0 x1 x2 x3 x4) (val_main_v66 (F := Ideal) x0 x1 x2 x3 x4) (val_main_v12 (F := Ideal) x1) x2 x4 x3 2 r q := by
  rw [val_main_v92_apply, val_main_v87_apply, val_main_v82_apply, val_main_v91_apply, bias2]
  unfold refEntry
  rw [Ideal.addf_def, Ideal.addf_def]
  refine congrArg₂ (· + ·) (congrArg (· + x3 (ix2 (2 : Fin 3) q)) (Finset.sum_congr rfl fun k _ => ?_))
    (Finset.sum_congr rfl fun k _ => ?_)
  · have el : lidx_main_v82 (ix2 r q) k = ix2 r k :=
      funext fun a => by match a with | ⟨0, _⟩ => rfl | ⟨1, _⟩ => rfl
    have er : ridx_main_v82 (ix2 r q) k = ix2 k q :=
      funext fun a => by match a with | ⟨0, _⟩ => rfl | ⟨1, _⟩ => rfl
    rw [el, er, agg2, wlT2]
  · have el : lidx_main_v91 (ix2 r q) k = ix2 r k :=
      funext fun a => by match a with | ⟨0, _⟩ => rfl | ⟨1, _⟩ => rfl
    have er : ridx_main_v91 (ix2 r q) k = ix2 k q :=
      funext fun a => by match a with | ⟨0, _⟩ => rfl | ⟨1, _⟩ => rfl
    rw [el, er, wrT2]

/-- Layer 2 has no activation: the last hidden features are the combine step's value. -/
theorem h3_entry (r : Fin 100000) (q : Fin 64) :
    val_main_v92 (F := Ideal) x0 x1 x2 x3 x4 (ix2 r q)
      = refEntry (val_main_v76 (F := Ideal) x0 x1 x2 x3 x4) (val_main_v66 (F := Ideal) x0 x1 x2 x3 x4)
          (val_main_v12 (F := Ideal) x1) x2 x4 x3 2 r q :=
  pre2 x0 x1 x2 x3 x4 r q

/-! ## The output layer -/

/-- The classifier: h @ Wout.T + bout at entry (r, q), with Wout read transposed and bout broadcast along the nodes. -/
theorem out_entry (r : Fin 100000) (q : Fin 2) :
    val_main_v97 (F := Ideal) x0 x1 x2 x3 x4 x5 x6 (ix2 r q)
      = (∑ k : Fin 64, val_main_v92 (F := Ideal) x0 x1 x2 x3 x4 (ix2 r k) * x5 (ix2 q k)) + x6 (ix1 q) := by
  have eb : idx_main_v95 (idx_main_v96 (ix2 r q)) = ix1 q :=
    funext fun a => by match a with | ⟨0, _⟩ => rfl
  rw [val_main_v97_apply, val_main_v94_apply, val_main_v96_apply, val_main_v95_apply, eb, Ideal.addf_def]
  refine congrArg (· + x6 (ix1 q)) (Finset.sum_congr rfl fun k _ => ?_)
  have el : lidx_main_v94 (ix2 r q) k = ix2 r k :=
    funext fun a => by match a with | ⟨0, _⟩ => rfl | ⟨1, _⟩ => rfl
  have er : idx_main_v93 (ridx_main_v94 (ix2 r q) k) = ix2 q k :=
    funext fun a => by match a with | ⟨0, _⟩ => rfl | ⟨1, _⟩ => rfl
  rw [el, val_main_v93_apply, er]

end Cert.Sage.Ref

end
-- ==== Proof.Glue.lean ====
/-
  The two programs compute the neighbour sums and the reciprocal degrees with the same host operations.

  Before each layer both programs gather the current node features along the edges' sources (a negative source
  counted from the end) and add the gathered rows up at the edges' destinations, starting from zero; both count
  the edges arriving at each node, take that count as at least one and divide one by it. The operations and their
  dimension numbers are the same in the two programs; what differs is only how they are written down: the
  kernel program narrows the features before the gather and widens the gathered rows again, which on the
  extended reals changes nothing, and it turns the reciprocal degrees into a column by a reshape where the
  reference uses a broadcast, which gives the same column. Nothing about the edge list is used.
-/
import proofs.«142910_j893353198160_2_alg».proof.Proof.HostK
import proofs.«142910_j893353198160_2_alg».proof.Proof.HostPrep
import proofs.«142910_j893353198160_2_alg».proof.Proof.Gen.ReferenceIdeal.Read

noncomputable section

namespace Cert.Sage.Glue

open Cert.ReferenceIdeal Cert.ReferenceIdeal.Read Idealize.ShloMosaic

variable (x0 : (⟨S100000x64, .f32⟩ : BufTy).Contents (Elt Ideal))
  (x1 : (⟨S2x1000000, .i32⟩ : BufTy).Contents (Elt Ideal))
  (x2 : (⟨S3x64x64, .f32⟩ : BufTy).Contents (Elt Ideal))
  (x3 : (⟨S3x64, .f32⟩ : BufTy).Contents (Elt Ideal))
  (x4 : (⟨S3x64x64, .f32⟩ : BufTy).Contents (Elt Ideal))

/-! ## The edge list's two rows and the index columns built from them -/

/-- The edges' source nodes: the first row of the edge list. -/
theorem src_eq : val_main_v1 (F := Ideal) x1 = Cert.Sage.Host.srcRow x1 := rfl

/-- The edges' destination nodes: the second row of the edge list. -/
theorem dst_eq : val_main_v3 (F := Ideal) x1 = Cert.Sage.Host.dstRow x1 := rfl

/-- The first gather's start indices: a negative source counted from the end, as a column. -/
theorem srcIdx0_eq : val_main_v18 (F := Ideal) x1 = Cert.Sage.Host.srcIdx x1 := by
  unfold val_main_v18 val_main_v17 val_main_v14 val_main_v16 val_main_v13 val_main_v15 val_main_c val_main_c_3
    Cert.Sage.Host.srcIdx
  rw [src_eq]

/-- The first scatter's indices: the destinations as a column. -/
theorem dstIdx0_eq : val_main_v21 (F := Ideal) x1 = Cert.Sage.Host.dstIdx x1 := by
  unfold val_main_v21 Cert.Sage.Host.dstIdx
  rw [dst_eq]

/-- The first layer's neighbour sums. -/
theorem agg0 : val_main_v22 (F := Ideal) x0 x1 = Cert.Sage.Host.edgeSum x1 x0 := by
  unfold val_main_v22 val_main_v19 val_main_v20 val_main_cst_4 Cert.Sage.Host.edgeSum
  rw [srcIdx0_eq, dstIdx0_eq]
  rfl

/-- The second gather's start indices are the same column. -/
theorem srcIdx1_eq : val_main_v45 (F := Ideal) x1 = Cert.Sage.Host.srcIdx x1 := by
  unfold val_main_v45 val_main_v44 val_main_v41 val_main_v43 val_main_v40 val_main_v42 val_main_c_5 val_main_c_6
    Cert.Sage.Host.srcIdx
  rw [src_eq]

/-- The second scatter's indices are the same column. -/
theorem dstIdx1_eq : val_main_v48 (F := Ideal) x1 = Cert.Sage.Host.dstIdx x1 := by
  unfold val_main_v48 Cert.Sage.Host.dstIdx
  rw [dst_eq]

/-- The second layer's neighbour sums, of the previous layer's output. -/
theorem agg1 :
    val_main_v49 (F := Ideal) x0 x1 x2 x3 x4 = Cert.Sage.Host.edgeSum x1 (val_main_v39 (F := Ideal) x0 x1 x2 x3 x4) := by
  unfold val_main_v49 val_main_v46 val_main_v47 val_main_cst_7 Cert.Sage.Host.edgeSum
  rw [srcIdx1_eq, dstIdx1_eq]
  rfl

/-- The third gather's start indices are the same column. -/
theorem srcIdx2_eq : val_main_v72 (F := Ideal) x1 = Cert.Sage.Host.srcIdx x1 := by
  unfold val_main_v72 val_main_v71 val_main_v68 val_main_v70 val_main_v67 val_main_v69 val_main_c_8 val_main_c_9
    Cert.Sage.Host.srcIdx
  rw [src_eq]

/-- The third scatter's indices are the same column. -/
theorem dstIdx2_eq : val_main_v75 (F := Ideal) x1 = Cert.Sage.Host.dstIdx x1 := by
  unfold val_main_v75 Cert.Sage.Host.dstIdx
  rw [dst_eq]

/-- The third layer's neighbour sums, of the previous layer's output. -/
theorem agg2 :
    val_main_v76 (F := Ideal) x0 x1 x2 x3 x4 = Cert.Sage.Host.edgeSum x1 (val_main_v66 (F := Ideal) x0 x1 x2 x3 x4) := by
  unfold val_main_v76 val_main_v73 val_main_v74 val_main_cst_10 Cert.Sage.Host.edgeSum
  rw [srcIdx2_eq, dstIdx2_eq]
  rfl

/-! ## The reciprocal degrees -/

/-- One over the number of edges arriving at each node, that number taken as at least one. -/
theorem invRow_eq : val_main_v11 (F := Ideal) x1 = Cert.Sage.Host.invRow x1 := by
  unfold val_main_v11 val_main_v10 val_main_v9 val_main_v8 val_main_v7 val_main_v6 val_main_v5 val_main_v4
    val_main_cst val_main_cst_0 val_main_cst_1 val_main_cst_2 Cert.Sage.Host.invRow Cert.Sage.Host.dstIdx
  rw [dst_eq]
  rfl

/-- The same as a column: broadcasting a vector to a column and reshaping it to that column give the same column. -/
theorem inv : val_main_v12 (F := Ideal) x1 = Cert.Sage.Host.invCol x1 := by
  unfold val_main_v12 Cert.Sage.Host.invCol
  rw [invRow_eq]
  exact (Cert.Sage.Prep.reshape_col_eq_bcast (N := 100000) (Cert.Sage.Host.invRow x1) _ _).symm

end Cert.Sage.Glue

end
-- ==== Proof.LibMatRows.lean ====
/-
  A plain matrix product read at one entry.

  For operands of shapes [M, K] and [K, N] contracted over the left's columns and the right's rows, entry (p, c)
  of the product is the sum over k of left (p, k) times right (k, c).  At the ideal instance this holds both for a
  kernel's product accumulated into a zero array and for a host product, whatever precision or schedule is named:
  neither rounding nor summation order is left.  Everything is generic in the extents M, K, N.
-/
import Idealize.ShloMosaic.PureOps.Ideal
import Idealize.ShloMosaic.PureOps.Ideal.Laws
import Idealize.ShloMosaic.Lib.ValueIdx

noncomputable section

open scoped BigOperators

namespace Idealize.ShloMosaic.MatRows

open Idealize.ShloMosaic Idealize.ShloMosaic.ValueIdx

variable {M K N : Nat}

/-- The contraction index set of a plain product is its one coordinate, ranging over the shared extent. -/
abbrev contrFin (M K N : Nat) : (DotDims.plain M K N).contr.Idx ≃ Fin K :=
  contrEquiv1 (DotDims.plain M K N) K rfl rfl

/-- At result entry (p, c) and contraction position k the left operand is read at (p, k). -/
theorem plain_lhsIdx (p : Fin M) (c : Fin N) (k : Fin K) :
    (DotDims.plain M K N).lhsIdx (ix2 p c) ((contrFin M K N).symm k) = ix2 p k := by
  funext a
  refine Fin.ext ?_
  match a with
  | ⟨0, _⟩ => rfl
  | ⟨1, _⟩ =>
    exact ((DotDims.plain M K N).lhsIdx_val_of_single (cl := (1 : Fin 2)) rfl (ix2 p c) _).trans
      (contrEquiv1_symm_val (DotDims.plain M K N) K rfl rfl k)

/-- At result entry (p, c) and contraction position k the right operand is read at (k, c). -/
theorem plain_rhsIdx (p : Fin M) (c : Fin N) (k : Fin K) :
    (DotDims.plain M K N).rhsIdx (ix2 p c) ((contrFin M K N).symm k) = ix2 k c := by
  funext a
  refine Fin.ext ?_
  match a with
  | ⟨0, _⟩ =>
    exact ((DotDims.plain M K N).rhsIdx_val_of_single (cr := (0 : Fin 2)) rfl (ix2 p c) _).trans
      (contrEquiv1_symm_val (DotDims.plain M K N) K rfl rfl k)
  | ⟨1, _⟩ => rfl

/-- The contraction sum of a plain product, re-indexed by the shared extent. -/
theorem plain_sum (l : (⟨2, ![M, K]⟩ : Shape).Idx → EReal) (r : (⟨2, ![K, N]⟩ : Shape).Idx → EReal) (p : Fin M) (c : Fin N) :
    ∑ k : (DotDims.plain M K N).contr.Idx,
        l ((DotDims.plain M K N).lhsIdx (ix2 p c) k) * r ((DotDims.plain M K N).rhsIdx (ix2 p c) k)
      = ∑ k : Fin K, l (ix2 p k) * r (ix2 k c) := by
  rw [← Equiv.sum_comp (contrFin M K N).symm]
  exact Finset.sum_congr rfl fun k _ => by rw [plain_lhsIdx, plain_rhsIdx]

/-- A kernel's product into the zero array, at entry (p, c). -/
theorem matmul_plain_apply {φ₁ φ₂ : FTy} (prec : Option ContractPrecision)
    (l : FVec Ideal ⟨2, ![M, K]⟩ φ₁) (r : FVec Ideal ⟨2, ![K, N]⟩ φ₂) (p : Fin M) (c : Fin N) :
    matmul (DotDims.plain M K N) prec l r (constant (F := Ideal) ⟨2, ![M, N]⟩ .f32 0x00000000#32) (ix2 p c)
      = ∑ k : Fin K, l (ix2 p k) * r (ix2 k c) :=
  (Ideal.matmul_constant_zero_apply (DotDims.plain M K N) prec l r (ix2 p c)).trans (plain_sum l r p c)

/-- A host product, at entry (p, c). -/
theorem dotGeneral_plain_apply {φ₁ φ₂ : FTy} (prec : Option ContractPrecision)
    (l : FVec Ideal ⟨2, ![M, K]⟩ φ₁) (r : FVec Ideal ⟨2, ![K, N]⟩ φ₂) (p : Fin M) (c : Fin N) :
    (Host.dotGeneral (F := Ideal) (DotDims.plain M K N) prec l r : FVec Ideal ⟨2, ![M, N]⟩ .f32) (ix2 p c)
      = ∑ k : Fin K, l (ix2 p k) * r (ix2 k c) :=
  (Ideal.dotGeneral_apply (DotDims.plain M K N) prec _ l r (ix2 p c)).trans (plain_sum l r p c)

end Idealize.ShloMosaic.MatRows

end
-- ==== Proof.KernelRegions.lean ====
/-
  What each of the kernel program's three pipelined regions leaves in its output array, entry by entry, as a
  function of the arrays the region finds when it is entered.

  Every region runs over 20 grid points; point t works on rows 5000 t … 5000 t + 4999 of the row-tiled arrays
  (the summed neighbour features, the node's own features, the reciprocal-degree column, the output) and on the
  whole stacked weight matrix and bias row. At a row p of the block and an output feature q the body computes

      sum_{k < 64} (a[p,k] * d[p]) * W[k,q]  +  sum_{k < 64} h[p,k] * W[64 + k,q]  +  b[q]

  (the scaled neighbour row and the own row laid side by side, one product with the stacked 128 x 64 matrix, then
  the bias), followed in the first two regions by the maximum with zero, and in the third by a second product
  with the 64 x 2 classifier matrix and the classifier's bias. On the extended reals the narrowing of a value to
  the matrix unit's input type is the identity, a product accumulated into a zero array is the plain sum over the
  contracted axis, and the sum over 128 positions is the sum over the first 64 plus the sum over the last 64.

  The road, per region: the body's stored value at an index (p, q) of the block as the formula above of the blocks
  it loads; each loaded block as the corresponding rows of its array; hence what point t writes back is block t of
  ONE function of the whole arrays; the 20 blocks cover the output array (row r lies in block r / 5000); so the
  array ends as that function.
-/
import proofs.«142910_j893353198160_2_alg».proof.Proof.Gen.KernelIdeal.Frame
import proofs.«142910_j893353198160_2_alg».proof.Proof.Entry
import proofs.«142910_j893353198160_2_alg».proof.Proof.LibMatRows
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.Sage.Ker

open Cert.KernelIdeal Cert.KernelIdeal.Gen Cert.Sage Idealize.ShloMosaic Idealize.ShloMosaic.TcCoe Idealize.SL.Sem Idealize.ShloMosaic.ValueIdx
open Idealize.ShloMosaic.Pipeline (Dat)
open scoped BigOperators

/-! ## The body's arithmetic at one index -/

/-- The zero word the kernel's relu compares against. -/
abbrev Z : EReal := Ideal.ofBits .f32 0x00000000#32

/-- The first product of each layer is a plain [5000,128] by [128,64] product. -/
theorem dot128_eq : dot_S5000x128_S128x64_S5000x64_1_0_0_1_n_n = DotDims.plain 5000 128 64 := rfl

/-- A sum over 128 positions is the sum over the first 64 plus the sum over the last 64. -/
theorem sum128 (f : Fin 128 → EReal) :
    ∑ k : Fin 128, f k = ∑ k : Fin 64, f (Fin.castAdd 64 k) + ∑ k : Fin 64, f (Fin.natAdd 64 k) :=
  Fin.sum_univ_add (a := 64) (b := 64) f

/-- Two 64-wide rows laid side by side, read in the first half. -/
theorem cat_left {α : Type} (a b : S5000x64.Idx → α) (p : Fin 5000) (k : Fin 64) :
    concatenate S5000x128 1 [⟨S5000x64, a⟩, ⟨S5000x64, b⟩] concatenates_S5000x64_S5000x64_S5000x128_d1
        (ix2 p (Fin.castAdd 64 k)) = a (ix2 p k) :=
  concatenate_pair_apply_left (t := S5000x128) (1 : Fin 2) a b _ (ix2 p (Fin.castAdd 64 k)) rfl (ix2 p k)
    (by
      intro b
      match b with
      | ⟨0, _⟩ => rfl
      | ⟨1, _⟩ => rfl)

/-- Two 64-wide rows laid side by side, read in the second half. -/
theorem cat_right {α : Type} (a b : S5000x64.Idx → α) (p : Fin 5000) (k : Fin 64) :
    concatenate S5000x128 1 [⟨S5000x64, a⟩, ⟨S5000x64, b⟩] concatenates_S5000x64_S5000x64_S5000x128_d1
        (ix2 p (Fin.natAdd 64 k)) = b (ix2 p k) :=
  concatenate_pair_apply_right (t := S5000x128) (1 : Fin 2) a b _ (ix2 p (Fin.natAdd 64 k)) rfl rfl (ix2 p k)
    (by
      intro b hb
      match b, hb with
      | ⟨0, _⟩, _ => rfl
      | ⟨1, _⟩, hb => exact absurd rfl hb)
    (by show k.val + 64 = 64 + k.val; omega)

/-- The reciprocal-degree column spread over the 64 features, read at one entry. -/
theorem bcol_apply (x2 : S5000x1.Idx → EReal) (p : Fin 5000) (k : Fin 64) :
    broadcastTo S5000x64 x2 broadcasts_S5000x1_S5000x64 (ix2 p k) = x2 (ix2 p 0) :=
  broadcastTo_apply x2 _ (ix2 p k) (ix2 p 0)
    (by
      intro a
      match a with
      | ⟨0, _⟩ => rfl
      | ⟨1, _⟩ => rfl)

/-- The bias row spread over the 5000 rows, read at one entry. -/
theorem brow_apply (x13 : S1x64.Idx → EReal) (p : Fin 5000) (q : Fin 64) :
    broadcastTo S5000x64 x13 broadcasts_S1x64_S5000x64 (ix2 p q) = x13 (ix2 0 q) :=
  broadcastTo_apply x13 _ (ix2 p q) (ix2 0 q)
    (by
      intro a
      match a with
      | ⟨0, _⟩ => rfl
      | ⟨1, _⟩ => rfl)

/-- The scaled neighbour row: the summed neighbour features times the node's reciprocal degree (the narrowing to
    the matrix unit's input type is the identity on the extended reals). -/
theorem agg_apply (x0 : Vec Ideal S5000x64 .f32) (x2 : Vec Ideal S5000x1 .f32) (p : Fin 5000) (k : Fin 64) :
    (truncf .bf16 (mulf (shapeCast S5000x64 x0 shapeCasts_S5000x64_S5000x64)
        (broadcastTo S5000x64 (shapeCast S5000x1 x2 shapeCasts_S5000x1_S5000x1) broadcasts_S5000x1_S5000x64))
      bitsLt_bf16_f32 : FVec Ideal S5000x64 .bf16) (ix2 p k) = x0 (ix2 p k) * x2 (ix2 p 0) := by
  rw [truncf_apply, mulf_apply]
  refine congrArg₂ (· * ·) (congrFun (shapeCast_self x0 _) _) ?_
  rw [shapeCast_self]
  exact bcol_apply x2 p k

/-- The combined product of one layer at row p, feature q: the scaled neighbour row against the first 64 rows of
    the stacked matrix plus the own row against its last 64 rows. -/
theorem combine_apply (a b : FVec Ideal S5000x64 .bf16) (w : FVec Ideal S128x64 .bf16) (p : Fin 5000) (q : Fin 64) :
    matmul dot_S5000x128_S128x64_S5000x64_1_0_0_1_n_n none
        (concatenate S5000x128 1 [⟨S5000x64, a⟩, ⟨S5000x64, b⟩] concatenates_S5000x64_S5000x64_S5000x128_d1)
        w (constant (F := Ideal) S5000x64 .f32 0x00000000#32) (ix2 p q)
      = ∑ k : Fin 64, a (ix2 p k) * w (ix2 (Fin.castAdd 64 k) q) + ∑ k : Fin 64, b (ix2 p k) * w (ix2 (Fin.natAdd 64 k) q) := by
  rw [dot128_eq]
  refine (MatRows.matmul_plain_apply none _ _ p q).trans ?_
  refine (sum128 _).trans ?_
  exact congrArg₂ (· + ·)
    (Finset.sum_congr rfl fun k _ => congrArg (· * w (ix2 (Fin.castAdd 64 k) q)) (cat_left a b p k))
    (Finset.sum_congr rfl fun k _ => congrArg (· * w (ix2 (Fin.natAdd 64 k) q)) (cat_right a b p k))

/-- REGION 0's payload at row p of the block, feature q. -/
theorem pay0_apply (x0 x7 : Vec Ideal S5000x64 .f32) (x2 : Vec Ideal S5000x1 .f32) (x10 : Vec Ideal S128x64 .bf16)
    (x13 : Vec Ideal S1x64 .f32) (p : Fin 5000) (q : Fin 64) :
    k0_pay1 x0 x2 x7 x10 x13 (ix2 p q)
      = max ((∑ k : Fin 64, (x0 (ix2 p k) * x2 (ix2 p 0)) * x10 (ix2 (Fin.castAdd 64 k) q)
          + ∑ k : Fin 64, x7 (ix2 p k) * x10 (ix2 (Fin.natAdd 64 k) q)) + x13 (ix2 0 q)) Z := by
  unfold k0_pay1
  rw [maximumf_apply, addf_apply, broadcast_apply]
  refine congrArg₂ max (congrArg₂ (· + ·) ?_ ?_) rfl
  · refine (combine_apply _ _ _ p q).trans ?_
    exact congrArg₂ (· + ·)
      (Finset.sum_congr rfl fun k _ => congrArg₂ (· * ·) (agg_apply x0 x2 p k) (congrFun (shapeCast_self x10 _) _))
      (Finset.sum_congr rfl fun k _ => congrArg (x7 (ix2 p k) * ·) (congrFun (shapeCast_self x10 _) _))
  · rw [shapeCast_self]
    exact brow_apply x13 p q

/-- The dense part of one layer before any relu, at row p of the block, feature q, in the spelling of the second and
    third bodies (the own rows pass through one more identity cast than in the first). -/
theorem layer_apply (x0 x7 : Vec Ideal S5000x64 .f32) (x2 : Vec Ideal S5000x1 .f32) (x11 : Vec Ideal S128x64 .bf16)
    (x14 : Vec Ideal S1x64 .f32) (p : Fin 5000) (q : Fin 64) :
    (addf
        (matmul dot_S5000x128_S128x64_S5000x64_1_0_0_1_n_n none
          (concatenate S5000x128 1
            [⟨S5000x64, truncf .bf16 (mulf (shapeCast S5000x64 x0 shapeCasts_S5000x64_S5000x64)
                (broadcastTo S5000x64 (shapeCast S5000x1 x2 shapeCasts_S5000x1_S5000x1) broadcasts_S5000x1_S5000x64))
                bitsLt_bf16_f32⟩,
              ⟨S5000x64, truncf .bf16 (shapeCast S5000x64 x7 shapeCasts_S5000x64_S5000x64) bitsLt_bf16_f32⟩]
            concatenates_S5000x64_S5000x64_S5000x128_d1)
          (shapeCast S128x64 x11 shapeCasts_S128x64_S128x64 : FVec Ideal S128x64 .bf16) (constant (F := Ideal) S5000x64 .f32 0x00000000#32))
        (broadcastTo S5000x64 (shapeCast S1x64 x14 shapeCasts_S1x64_S1x64) broadcasts_S1x64_S5000x64)
      : FVec Ideal S5000x64 .f32) (ix2 p q)
      = (∑ k : Fin 64, (x0 (ix2 p k) * x2 (ix2 p 0)) * x11 (ix2 (Fin.castAdd 64 k) q)
          + ∑ k : Fin 64, x7 (ix2 p k) * x11 (ix2 (Fin.natAdd 64 k) q)) + x14 (ix2 0 q) := by
  rw [addf_apply]
  refine congrArg₂ (· + ·) ?_ ?_
  · refine (combine_apply _ _ _ p q).trans ?_
    exact congrArg₂ (· + ·)
      (Finset.sum_congr rfl fun k _ => congrArg₂ (· * ·) (agg_apply x0 x2 p k) (congrFun (shapeCast_self x11 _) _))
      (Finset.sum_congr rfl fun k _ =>
        congrArg₂ (· * ·) (congrFun (shapeCast_self x7 shapeCasts_S5000x64_S5000x64) (ix2 p k)) (congrFun (shapeCast_self x11 _) _))
  · rw [shapeCast_self]
    exact brow_apply x14 p q

/-- REGION 1's payload at row p of the block, feature q. -/
theorem pay1_apply (x0 x7 : Vec Ideal S5000x64 .f32) (x2 : Vec Ideal S5000x1 .f32) (x11 : Vec Ideal S128x64 .bf16)
    (x14 : Vec Ideal S1x64 .f32) (p : Fin 5000) (q : Fin 64) :
    k1_pay1 x0 x2 x7 x11 x14 (ix2 p q)
      = max ((∑ k : Fin 64, (x0 (ix2 p k) * x2 (ix2 p 0)) * x11 (ix2 (Fin.castAdd 64 k) q)
          + ∑ k : Fin 64, x7 (ix2 p k) * x11 (ix2 (Fin.natAdd 64 k) q)) + x14 (ix2 0 q)) Z := by
  unfold k1_pay1
  rw [maximumf_apply, broadcast_apply]
  exact congrArg₂ max (layer_apply x0 x7 x2 x11 x14 p q) rfl

/-! ## REGION 0: the first layer's combine step with relu -/

variable (V : (c : Dev nD) → (b : Ref sig .tc) → Buf (Elt Ideal) ((c : Thread nD τ).loc b))

theorem hz : (![0, 0] : Fin 2 → Nat) = fun _ => 0 := funext fun a => by fin_cases a <;> rfl

/-- One combine step followed by the relu, as a function of the whole arrays, entry by entry. -/
def GRelu (a h : S100000x64.Idx → EReal) (d : S100000x1.Idx → EReal) (w : S128x64.Idx → EReal) (b : S1x64.Idx → EReal) :
    S100000x64.Idx → EReal := fun j => max (kerEntry a h d w b (j 0) (j 1)) Z

/-- The printed index maps, decided over the grid: the row-tiled windows sit at block (t, 0), the weight and bias
    windows at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Block t of the summed neighbour rows is rows 5000 t … 5000 t + 4999 of the array. -/
theorem blk0_0 (c : Dev nD) (t : Fin cfg0.N) (p : Fin 5000) (k : Fin 64) (r : Fin 100000)
    (hr : r.val = t.val * 5000 + p.val) :
    (iblk0 V c 0 t : Vec Ideal S5000x64 .f32) (ix2 p k) = (V c main_v32 : S100000x64.Idx → EReal) (ix2 r k) := by
  obtain ⟨e0, e1, -⟩ := idx0 t
  unfold iblk0
  rw [View.read_apply]
  show V c main_v32 _ = V c main_v32 _
  congr 1
  funext a
  apply Fin.ext
  match a with
  | ⟨0, _⟩ => show win0_0.index t (0 : Fin 2) * 5000 + 1 * p.val = r.val; omega
  | ⟨1, _⟩ => show win0_0.index t (1 : Fin 2) * 64 + 1 * k.val = k.val; omega

/-- Block t of the own rows is rows 5000 t … 5000 t + 4999 of the array. -/
theorem blk0_1 (c : Dev nD) (t : Fin cfg0.N) (p : Fin 5000) (k : Fin 64) (r : Fin 100000)
    (hr : r.val = t.val * 5000 + p.val) :
    (iblk0 V c 1 t : Vec Ideal S5000x64 .f32) (ix2 p k) = (V c main_arg0 : S100000x64.Idx → EReal) (ix2 r k) := by
  obtain ⟨-, -, e0, e1, -⟩ := idx0 t
  unfold iblk0
  rw [View.read_apply]
  show V c main_arg0 _ = V c main_arg0 _
  congr 1
  funext a
  apply Fin.ext
  match a with
  | ⟨0, _⟩ => show win0_1.index t (0 : Fin 2) * 5000 + 1 * p.val = r.val; omega
  | ⟨1, _⟩ => show win0_1.index t (1 : Fin 2) * 64 + 1 * k.val = k.val; omega

/-- Block t of the reciprocal-degree column is its rows 5000 t … 5000 t + 4999. -/
theorem blk0_2 (c : Dev nD) (t : Fin cfg0.N) (p : Fin 5000) (r : Fin 100000)
    (hr : r.val = t.val * 5000 + p.val) :
    (iblk0 V c 2 t : Vec Ideal S5000x1 .f32) (ix2 p (0 : Fin 1)) = (V c main_v12 : S100000x1.Idx → EReal) (ix2 r (0 : Fin 1)) := by
  obtain ⟨-, -, -, -, e0, e1, -⟩ := idx0 t
  unfold iblk0
  rw [View.read_apply]
  show V c main_v12 _ = V c main_v12 _
  congr 1
  funext a
  apply Fin.ext
  match a with
  | ⟨0, _⟩ => show win0_2.index t (0 : Fin 2) * 5000 + 1 * p.val = r.val; omega
  | ⟨1, _⟩ => show win0_2.index t (1 : Fin 2) * 1 + 1 * 0 = 0; omega

/-- The stacked weights' one block is the whole array. -/
theorem blk0_3 (c : Dev nD) (t : Fin cfg0.N) (k : Fin 128) (q : Fin 64) :
    (iblk0 V c 3 t : Vec Ideal S128x64 .bf16) (ix2 k q) = (V c main_v34 : S128x64.Idx → EReal) (ix2 k q) := by
  obtain ⟨-, -, -, -, -, -, e0, e1, -⟩ := idx0 t
  unfold iblk0
  rw [View.read_apply]
  show V c main_v34 _ = V c main_v34 _
  congr 1
  funext a
  apply Fin.ext
  match a with
  | ⟨0, _⟩ => show win0_3.index t (0 : Fin 2) * 128 + 1 * k.val = k.val; omega
  | ⟨1, _⟩ => show win0_3.index t (1 : Fin 2) * 64 + 1 * q.val = q.val; omega

/-- The bias row's one block is the whole array. -/
theorem blk0_4 (c : Dev nD) (t : Fin cfg0.N) (q : Fin 64) :
    (iblk0 V c 4 t : Vec Ideal S1x64 .f32) (ix2 (0 : Fin 1) q) = (V c main_v36 : S1x64.Idx → EReal) (ix2 (0 : Fin 1) q) := by
  obtain ⟨-, -, -, -, -, -, -, -, e0, e1, -⟩ := idx0 t
  unfold iblk0
  rw [View.read_apply]
  show V c main_v36 _ = V c main_v36 _
  congr 1
  funext a
  apply Fin.ext
  match a with
  | ⟨0, _⟩ => show win0_4.index t (0 : Fin 2) * 1 + 1 * 0 = 0; omega
  | ⟨1, _⟩ => show win0_4.index t (1 : Fin 2) * 64 + 1 * q.val = q.val; omega

/-- Entry (p, q) of the output's block t sits at row 5000 t + p, column q of the array. -/
theorem emb0_5 (t : Fin cfg0.N) (p : Fin 5000) (q : Fin 64) (r : Fin 100000) (hr : r.val = t.val * 5000 + p.val) :
    ((cfg0.win 5).blk t).view.emb (ix2 p q) = (ix2 r q : S100000x64.Idx) := by
  obtain ⟨-, -, -, -, -, -, -, -, -, -, e0, e1⟩ := idx0 t
  funext a
  apply Fin.ext
  match a with
  | ⟨0, _⟩ => show win0_5.index t (0 : Fin 2) * 5000 + 1 * p.val = r.val; omega
  | ⟨1, _⟩ => show win0_5.index t (1 : Fin 2) * 64 + 1 * q.val = q.val; omega

/-- WHAT POINT t WRITES BACK is block t of the combine step with relu of the arrays the region finds. -/
theorem flushed0_eq (c : Dev nD) (t : Fin cfg0.N) :
    (dat0 (F := Ideal) V c).flushed 5 t = ((cfg0.win 5).blk t).view.read (Elt Ideal)
      (GRelu (V c main_v32) (V c main_arg0) (V c main_v12) (V c main_v34) (V c main_v36)) := by
  show (cfg0.win 5).cut (grid0.coords t) ((dat0 V c).after 5 t) = _
  rw [after0_5]
  unfold out0_5
  rw [View.canon_unit_zero hz]
  simp only [View.ld_unit_zero (S := S5000x64) hz, View.ld_unit_zero (S := S5000x1) hz, View.ld_unit_zero (S := S128x64) hz, View.ld_unit_zero (S := S1x64) hz]
  funext y
  obtain ⟨p, q, rfl⟩ : ∃ (p : Fin 5000) (q : Fin 64), y = ix2 p q := ⟨y 0, y 1, eq_ix2 y⟩
  have hN : cfg0.N = 20 := N_0
  have ht : t.val < 20 := hN ▸ t.isLt
  have hp : p.val < 5000 := p.isLt
  let r : Fin 100000 := ⟨t.val * 5000 + p.val, by omega⟩
  have hr : r.val = t.val * 5000 + p.val := rfl
  show k0_pay1 (iblk0 V c 0 t) (iblk0 V c 2 t) (iblk0 V c 1 t) (iblk0 V c 3 t) (iblk0 V c 4 t) (ix2 p q)
      = GRelu (V c main_v32) (V c main_arg0) (V c main_v12) (V c main_v34) (V c main_v36) (((cfg0.win 5).blk t).view.emb (ix2 p q))
  rw [emb0_5 t p q r hr]
  refine (pay0_apply _ _ _ _ _ p q).trans ?_
  show _ = max (kerEntry (V c main_v32) (V c main_arg0) (V c main_v12) (V c main_v34) (V c main_v36) r q) Z
  unfold kerEntry
  refine congrArg₂ max (congrArg₂ (· + ·) (congrArg₂ (· + ·) (Finset.sum_congr rfl fun k _ => ?_) (Finset.sum_congr rfl fun k _ => ?_)) ?_) rfl
  · exact congrArg₂ (· * ·) (congrArg₂ (· * ·) (blk0_0 V c t p k r hr) (blk0_2 V c t p r hr)) (blk0_3 V c t _ q)
  · exact congrArg₂ (· * ·) (blk0_1 V c t p k r hr) (blk0_3 V c t _ q)
  · exact blk0_4 V c t q

/-- An index of the output array is in point t's block iff each coordinate is in the block's range on its axis. -/
theorem mem_blk0 (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v37).slice (win0_5.rect t)).set ↔ _
  rw [View.set_slice_whole, Rect.mem_set_unit]
  exact Iff.rfl

/-- Every row r of the output lies in the block of point r / 5000, which is written back. -/
theorem cover0 (i : S100000x64.Idx) :
    ∃ t : Fin cfg0.N, (cfg0.win 5).flush t = true ∧ i ∈ ((cfg0.win 5).blk t).view.set := by
  have hN : cfg0.N = 20 := N_0
  have hi0 : (i 0).val < 100000 := (i 0).isLt
  have hi1 : (i 1).val < 64 := (i 1).isLt
  let t : Fin cfg0.N := ⟨(i 0).val / 5000, by rw [hN]; omega⟩
  have htv : t.val = (i 0).val / 5000 := rfl
  obtain ⟨-, -, -, -, -, -, -, -, -, -, e0, e1⟩ := idx0 t
  refine ⟨t, flush0_5 t, ?_⟩
  rw [mem_blk0]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 64 ≤ (i 1).val ∧ (i 1).val < win0_5.index t (1 : Fin 2) * 64 + 64
    omega

/-- THE OUTPUT ARRAY of region 0 after the run: the combine step with relu of the arrays the region finds. -/
theorem final0 (c : Dev nD) : (dat0 (F := Ideal) V c).arrAt 5 cfg0.N
    = GRelu (V c main_v32) (V c main_arg0) (V c main_v12) (V c main_v34) (V c main_v36) :=
  (dat0 V c).arrAt_eq_of_cover 5 (GRelu (V c main_v32) (V c main_arg0) (V c main_v12) (V c main_v34) (V c main_v36))
    (fun t _ => flushed0_eq V c t) cover0

/-- REGION 0, entry by entry. -/
theorem region0_entry (c : Dev nD) (r : Fin 100000) (q : Fin 64) :
    (dat0 (F := Ideal) V c).arrAt 5 cfg0.N (ix2 r q)
      = max (kerEntry (V c main_v32) (V c main_arg0) (V c main_v12) (V c main_v34) (V c main_v36) r q) Z :=
  congrFun (final0 V c) (ix2 r q)

/-! ## REGION 1: the second layer's combine step with relu -/

/-- The printed index maps, decided over the grid: the row-tiled windows sit at block (t, 0), the weight and bias
    windows at block (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Block t of the summed neighbour rows is rows 5000 t … 5000 t + 4999 of the array. -/
theorem blk1_0 (c : Dev nD) (t : Fin cfg1.N) (p : Fin 5000) (k : Fin 64) (r : Fin 100000)
    (hr : r.val = t.val * 5000 + p.val) :
    (iblk1 V c 0 t : Vec Ideal S5000x64 .f32) (ix2 p k) = (V c main_v49 : S100000x64.Idx → EReal) (ix2 r k) := by
  obtain ⟨e0, e1, -⟩ := idx1 t
  unfold iblk1
  rw [View.read_apply]
  show V c main_v49 _ = V c main_v49 _
  congr 1
  funext a
  apply Fin.ext
  match a with
  | ⟨0, _⟩ => show win1_0.index t (0 : Fin 2) * 5000 + 1 * p.val = r.val; omega
  | ⟨1, _⟩ => show win1_0.index t (1 : Fin 2) * 64 + 1 * k.val = k.val; omega

/-- Block t of the own rows is rows 5000 t … 5000 t + 4999 of the array. -/
theorem blk1_1 (c : Dev nD) (t : Fin cfg1.N) (p : Fin 5000) (k : Fin 64) (r : Fin 100000)
    (hr : r.val = t.val * 5000 + p.val) :
    (iblk1 V c 1 t : Vec Ideal S5000x64 .f32) (ix2 p k) = (V c main_v37 : S100000x64.Idx → EReal) (ix2 r k) := by
  obtain ⟨-, -, e0, e1, -⟩ := idx1 t
  unfold iblk1
  rw [View.read_apply]
  show V c main_v37 _ = V c main_v37 _
  congr 1
  funext a
  apply Fin.ext
  match a with
  | ⟨0, _⟩ => show win1_1.index t (0 : Fin 2) * 5000 + 1 * p.val = r.val; omega
  | ⟨1, _⟩ => show win1_1.index t (1 : Fin 2) * 64 + 1 * k.val = k.val; omega

/-- Block t of the reciprocal-degree column is its rows 5000 t … 5000 t + 4999. -/
theorem blk1_2 (c : Dev nD) (t : Fin cfg1.N) (p : Fin 5000) (r : Fin 100000)
    (hr : r.val = t.val * 5000 + p.val) :
    (iblk1 V c 2 t : Vec Ideal S5000x1 .f32) (ix2 p (0 : Fin 1)) = (V c main_v12 : S100000x1.Idx → EReal) (ix2 r (0 : Fin 1)) := by
  obtain ⟨-, -, -, -, e0, e1, -⟩ := idx1 t
  unfold iblk1
  rw [View.read_apply]
  show V c main_v12 _ = V c main_v12 _
  congr 1
  funext a
  apply Fin.ext
  match a with
  | ⟨0, _⟩ => show win1_2.index t (0 : Fin 2) * 5000 + 1 * p.val = r.val; omega
  | ⟨1, _⟩ => show win1_2.index t (1 : Fin 2) * 1 + 1 * 0 = 0; omega

/-- The stacked weights' one block is the whole array. -/
theorem blk1_3 (c : Dev nD) (t : Fin cfg1.N) (k : Fin 128) (q : Fin 64) :
    (iblk1 V c 3 t : Vec Ideal S128x64 .bf16) (ix2 k q) = (V c main_v51 : S128x64.Idx → EReal) (ix2 k q) := by
  obtain ⟨-, -, -, -, -, -, e0, e1, -⟩ := idx1 t
  unfold iblk1
  rw [View.read_apply]
  show V c main_v51 _ = V c main_v51 _
  congr 1
  funext a
  apply Fin.ext
  match a with
  | ⟨0, _⟩ => show win1_3.index t (0 : Fin 2) * 128 + 1 * k.val = k.val; omega
  | ⟨1, _⟩ => show win1_3.index t (1 : Fin 2) * 64 + 1 * q.val = q.val; omega

/-- The bias row's one block is the whole array. -/
theorem blk1_4 (c : Dev nD) (t : Fin cfg1.N) (q : Fin 64) :
    (iblk1 V c 4 t : Vec Ideal S1x64 .f32) (ix2 (0 : Fin 1) q) = (V c main_v53 : S1x64.Idx → EReal) (ix2 (0 : Fin 1) q) := by
  obtain ⟨-, -, -, -, -, -, -, -, e0, e1, -⟩ := idx1 t
  unfold iblk1
  rw [View.read_apply]
  show V c main_v53 _ = V c main_v53 _
  congr 1
  funext a
  apply Fin.ext
  match a with
  | ⟨0, _⟩ => show win1_4.index t (0 : Fin 2) * 1 + 1 * 0 = 0; omega
  | ⟨1, _⟩ => show win1_4.index t (1 : Fin 2) * 64 + 1 * q.val = q.val; omega

/-- Entry (p, q) of the output's block t sits at row 5000 t + p, column q of the array. -/
theorem emb1_5 (t : Fin cfg1.N) (p : Fin 5000) (q : Fin 64) (r : Fin 100000) (hr : r.val = t.val * 5000 + p.val) :
    ((cfg1.win 5).blk t).view.emb (ix2 p q) = (ix2 r q : S100000x64.Idx) := by
  obtain ⟨-, -, -, -, -, -, -, -, -, -, e0, e1⟩ := idx1 t
  funext a
  apply Fin.ext
  match a with
  | ⟨0, _⟩ => show win1_5.index t (0 : Fin 2) * 5000 + 1 * p.val = r.val; omega
  | ⟨1, _⟩ => show win1_5.index t (1 : Fin 2) * 64 + 1 * q.val = q.val; omega

/-- WHAT POINT t WRITES BACK is block t of the combine step with relu of the arrays the region finds. -/
theorem flushed1_eq (c : Dev nD) (t : Fin cfg1.N) :
    (dat1 (F := Ideal) V c).flushed 5 t = ((cfg1.win 5).blk t).view.read (Elt Ideal)
      (GRelu (V c main_v49) (V c main_v37) (V c main_v12) (V c main_v51) (V c main_v53)) := by
  show (cfg1.win 5).cut (grid1.coords t) ((dat1 V c).after 5 t) = _
  rw [after1_5]
  unfold out1_5
  rw [View.canon_unit_zero hz]
  simp only [View.ld_unit_zero (S := S5000x64) hz, View.ld_unit_zero (S := S5000x1) hz, View.ld_unit_zero (S := S128x64) hz, View.ld_unit_zero (S := S1x64) hz]
  funext y
  obtain ⟨p, q, rfl⟩ : ∃ (p : Fin 5000) (q : Fin 64), y = ix2 p q := ⟨y 0, y 1, eq_ix2 y⟩
  have hN : cfg1.N = 20 := N_1
  have ht : t.val < 20 := hN ▸ t.isLt
  have hp : p.val < 5000 := p.isLt
  let r : Fin 100000 := ⟨t.val * 5000 + p.val, by omega⟩
  have hr : r.val = t.val * 5000 + p.val := rfl
  show k1_pay1 (iblk1 V c 0 t) (iblk1 V c 2 t) (iblk1 V c 1 t) (iblk1 V c 3 t) (iblk1 V c 4 t) (ix2 p q)
      = GRelu (V c main_v49) (V c main_v37) (V c main_v12) (V c main_v51) (V c main_v53) (((cfg1.win 5).blk t).view.emb (ix2 p q))
  rw [emb1_5 t p q r hr]
  refine (pay1_apply _ _ _ _ _ p q).trans ?_
  show _ = max (kerEntry (V c main_v49) (V c main_v37) (V c main_v12) (V c main_v51) (V c main_v53) r q) Z
  unfold kerEntry
  refine congrArg₂ max (congrArg₂ (· + ·) (congrArg₂ (· + ·) (Finset.sum_congr rfl fun k _ => ?_) (Finset.sum_congr rfl fun k _ => ?_)) ?_) rfl
  · exact congrArg₂ (· * ·) (congrArg₂ (· * ·) (blk1_0 V c t p k r hr) (blk1_2 V c t p r hr)) (blk1_3 V c t _ q)
  · exact congrArg₂ (· * ·) (blk1_1 V c t p k r hr) (blk1_3 V c t _ q)
  · exact blk1_4 V c t q

/-- An index of the output array is in point t's block iff each coordinate is in the block's range on its axis. -/
theorem mem_blk1 (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v54).slice (win1_5.rect t)).set ↔ _
  rw [View.set_slice_whole, Rect.mem_set_unit]
  exact Iff.rfl

/-- Every row r of the output lies in the block of point r / 5000, which is written back. -/
theorem cover1 (i : S100000x64.Idx) :
    ∃ t : Fin cfg1.N, (cfg1.win 5).flush t = true ∧ i ∈ ((cfg1.win 5).blk t).view.set := by
  have hN : cfg1.N = 20 := N_1
  have hi0 : (i 0).val < 100000 := (i 0).isLt
  have hi1 : (i 1).val < 64 := (i 1).isLt
  let t : Fin cfg1.N := ⟨(i 0).val / 5000, by rw [hN]; omega⟩
  have htv : t.val = (i 0).val / 5000 := rfl
  obtain ⟨-, -, -, -, -, -, -, -, -, -, e0, e1⟩ := idx1 t
  refine ⟨t, flush1_5 t, ?_⟩
  rw [mem_blk1]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 64 ≤ (i 1).val ∧ (i 1).val < win1_5.index t (1 : Fin 2) * 64 + 64
    omega

/-- THE OUTPUT ARRAY of region 1 after the run: the combine step with relu of the arrays the region finds. -/
theorem final1 (c : Dev nD) : (dat1 (F := Ideal) V c).arrAt 5 cfg1.N
    = GRelu (V c main_v49) (V c main_v37) (V c main_v12) (V c main_v51) (V c main_v53) :=
  (dat1 V c).arrAt_eq_of_cover 5 (GRelu (V c main_v49) (V c main_v37) (V c main_v12) (V c main_v51) (V c main_v53))
    (fun t _ => flushed1_eq V c t) cover1

/-- REGION 1, entry by entry. -/
theorem region1_entry (c : Dev nD) (r : Fin 100000) (q : Fin 64) :
    (dat1 (F := Ideal) V c).arrAt 5 cfg1.N (ix2 r q)
      = max (kerEntry (V c main_v49) (V c main_v37) (V c main_v12) (V c main_v51) (V c main_v53) r q) Z :=
  congrFun (final1 V c) (ix2 r q)

/-! ## REGION 2: the last layer's combine step (no relu) followed by the classifier -/

/-- The classifier's product is a plain [5000,64] by [64,2] product. -/
theorem dot64_eq : dot_S5000x64_S64x2_S5000x2_1_0_0_1_n_n = DotDims.plain 5000 64 2 := rfl

/-- The classifier's bias row spread over the 5000 rows, read at one entry. -/
theorem brow2_apply (x22 : S1x2.Idx → EReal) (p : Fin 5000) (q : Fin 2) :
    broadcastTo S5000x2 x22 broadcasts_S1x2_S5000x2 (ix2 p q) = x22 (ix2 0 q) :=
  broadcastTo_apply x22 _ (ix2 p q) (ix2 0 q)
    (by
      intro a
      match a with
      | ⟨0, _⟩ => rfl
      | ⟨1, _⟩ => rfl)

/-- REGION 2's payload at row p of the block, class q: the layer's 64 features against the classifier's column q,
    plus the classifier's bias. -/
theorem pay2_apply (x0 x7 : Vec Ideal S5000x64 .f32) (x2 : Vec Ideal S5000x1 .f32) (x11 : Vec Ideal S128x64 .bf16)
    (x14 : Vec Ideal S1x64 .f32) (x19 : Vec Ideal S64x2 .bf16) (x22 : Vec Ideal S1x2 .f32) (p : Fin 5000) (q : Fin 2) :
    k2_pay1 x0 x2 x7 x11 x14 x19 x22 (ix2 p q)
      = (∑ j : Fin 64, ((∑ k : Fin 64, (x0 (ix2 p k) * x2 (ix2 p 0)) * x11 (ix2 (Fin.castAdd 64 k) j)
            + ∑ k : Fin 64, x7 (ix2 p k) * x11 (ix2 (Fin.natAdd 64 k) j)) + x14 (ix2 0 j)) * x19 (ix2 j q))
          + x22 (ix2 0 q) := by
  unfold k2_pay1
  rw [addf_apply]
  refine congrArg₂ (· + ·) ?_ ?_
  · rw [dot64_eq]
    refine (MatRows.matmul_plain_apply none _ _ p q).trans ?_
    exact Finset.sum_congr rfl fun j _ =>
      congrArg₂ (· * ·) (layer_apply x0 x7 x2 x11 x14 p j) (congrFun (shapeCast_self x19 _) _)
  · rw [shapeCast_self]
    exact brow2_apply x22 p q

/-- The last layer's combine step followed by the classifier, as a function of the whole arrays, entry by entry. -/
def GOut (a h : S100000x64.Idx → EReal) (d : S100000x1.Idx → EReal) (w : S128x64.Idx → EReal) (b : S1x64.Idx → EReal)
    (wo : S64x2.Idx → EReal) (bo : S1x2.Idx → EReal) : S100000x2.Idx → EReal :=
  fun j => (∑ k : Fin 64, kerEntry a h d w b (j 0) k * wo (ix2 k (j 1))) + bo (ix2 (0 : Fin 1) (j 1))

/-- The printed index maps, decided over the grid: the row-tiled windows sit at block (t, 0), the weight and bias
    windows at block (0, 0). -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Block t of the summed neighbour rows is rows 5000 t … 5000 t + 4999 of the array. -/
theorem blk2_0 (c : Dev nD) (t : Fin cfg2.N) (p : Fin 5000) (k : Fin 64) (r : Fin 100000)
    (hr : r.val = t.val * 5000 + p.val) :
    (iblk2 V c 0 t : Vec Ideal S5000x64 .f32) (ix2 p k) = (V c main_v66 : S100000x64.Idx → EReal) (ix2 r k) := by
  obtain ⟨e0, e1, -⟩ := idx2 t
  unfold iblk2
  rw [View.read_apply]
  show V c main_v66 _ = V c main_v66 _
  congr 1
  funext a
  apply Fin.ext
  match a with
  | ⟨0, _⟩ => show win2_0.index t (0 : Fin 2) * 5000 + 1 * p.val = r.val; omega
  | ⟨1, _⟩ => show win2_0.index t (1 : Fin 2) * 64 + 1 * k.val = k.val; omega

/-- Block t of the own rows is rows 5000 t … 5000 t + 4999 of the array. -/
theorem blk2_1 (c : Dev nD) (t : Fin cfg2.N) (p : Fin 5000) (k : Fin 64) (r : Fin 100000)
    (hr : r.val = t.val * 5000 + p.val) :
    (iblk2 V c 1 t : Vec Ideal S5000x64 .f32) (ix2 p k) = (V c main_v54 : S100000x64.Idx → EReal) (ix2 r k) := by
  obtain ⟨-, -, e0, e1, -⟩ := idx2 t
  unfold iblk2
  rw [View.read_apply]
  show V c main_v54 _ = V c main_v54 _
  congr 1
  funext a
  apply Fin.ext
  match a with
  | ⟨0, _⟩ => show win2_1.index t (0 : Fin 2) * 5000 + 1 * p.val = r.val; omega
  | ⟨1, _⟩ => show win2_1.index t (1 : Fin 2) * 64 + 1 * k.val = k.val; omega

/-- Block t of the reciprocal-degree column is its rows 5000 t … 5000 t + 4999. -/
theorem blk2_2 (c : Dev nD) (t : Fin cfg2.N) (p : Fin 5000) (r : Fin 100000)
    (hr : r.val = t.val * 5000 + p.val) :
    (iblk2 V c 2 t : Vec Ideal S5000x1 .f32) (ix2 p (0 : Fin 1)) = (V c main_v12 : S100000x1.Idx → EReal) (ix2 r (0 : Fin 1)) := by
  obtain ⟨-, -, -, -, e0, e1, -⟩ := idx2 t
  unfold iblk2
  rw [View.read_apply]
  show V c main_v12 _ = V c main_v12 _
  congr 1
  funext a
  apply Fin.ext
  match a with
  | ⟨0, _⟩ => show win2_2.index t (0 : Fin 2) * 5000 + 1 * p.val = r.val; omega
  | ⟨1, _⟩ => show win2_2.index t (1 : Fin 2) * 1 + 1 * 0 = 0; omega

/-- The stacked weights' one block is the whole array. -/
theorem blk2_3 (c : Dev nD) (t : Fin cfg2.N) (k : Fin 128) (q : Fin 64) :
    (iblk2 V c 3 t : Vec Ideal S128x64 .bf16) (ix2 k q) = (V c main_v68 : S128x64.Idx → EReal) (ix2 k q) := by
  obtain ⟨-, -, -, -, -, -, e0, e1, -⟩ := idx2 t
  unfold iblk2
  rw [View.read_apply]
  show V c main_v68 _ = V c main_v68 _
  congr 1
  funext a
  apply Fin.ext
  match a with
  | ⟨0, _⟩ => show win2_3.index t (0 : Fin 2) * 128 + 1 * k.val = k.val; omega
  | ⟨1, _⟩ => show win2_3.index t (1 : Fin 2) * 64 + 1 * q.val = q.val; omega

/-- The bias row's one block is the whole array. -/
theorem blk2_4 (c : Dev nD) (t : Fin cfg2.N) (q : Fin 64) :
    (iblk2 V c 4 t : Vec Ideal S1x64 .f32) (ix2 (0 : Fin 1) q) = (V c main_v70 : S1x64.Idx → EReal) (ix2 (0 : Fin 1) q) := by
  obtain ⟨-, -, -, -, -, -, -, -, e0, e1, -⟩ := idx2 t
  unfold iblk2
  rw [View.read_apply]
  show V c main_v70 _ = V c main_v70 _
  congr 1
  funext a
  apply Fin.ext
  match a with
  | ⟨0, _⟩ => show win2_4.index t (0 : Fin 2) * 1 + 1 * 0 = 0; omega
  | ⟨1, _⟩ => show win2_4.index t (1 : Fin 2) * 64 + 1 * q.val = q.val; omega

/-- The classifier weights' one block is the whole array. -/
theorem blk2_5 (c : Dev nD) (t : Fin cfg2.N) (k : Fin 64) (q : Fin 2) :
    (iblk2 V c 5 t : Vec Ideal S64x2 .bf16) (ix2 k q) = (V c main_v19 : S64x2.Idx → EReal) (ix2 k q) := by
  obtain ⟨-, -, -, -, -, -, -, -, -, -, e0, e1, -⟩ := idx2 t
  unfold iblk2
  rw [View.read_apply]
  show V c main_v19 _ = V c main_v19 _
  congr 1
  funext a
  apply Fin.ext
  match a with
  | ⟨0, _⟩ => show win2_5.index t (0 : Fin 2) * 64 + 1 * k.val = k.val; omega
  | ⟨1, _⟩ => show win2_5.index t (1 : Fin 2) * 2 + 1 * q.val = q.val; omega

/-- The classifier bias row's one block is the whole array. -/
theorem blk2_6 (c : Dev nD) (t : Fin cfg2.N) (q : Fin 2) :
    (iblk2 V c 6 t : Vec Ideal S1x2 .f32) (ix2 (0 : Fin 1) q) = (V c main_v20 : S1x2.Idx → EReal) (ix2 (0 : Fin 1) q) := by
  obtain ⟨-, -, -, -, -, -, -, -, -, -, -, -, e0, e1, -⟩ := idx2 t
  unfold iblk2
  rw [View.read_apply]
  show V c main_v20 _ = V c main_v20 _
  congr 1
  funext a
  apply Fin.ext
  match a with
  | ⟨0, _⟩ => show win2_6.index t (0 : Fin 2) * 1 + 1 * 0 = 0; omega
  | ⟨1, _⟩ => show win2_6.index t (1 : Fin 2) * 2 + 1 * q.val = q.val; omega

/-- Entry (p, q) of the output's block t sits at row 5000 t + p, column q of the array. -/
theorem emb2_7 (t : Fin cfg2.N) (p : Fin 5000) (q : Fin 2) (r : Fin 100000) (hr : r.val = t.val * 5000 + p.val) :
    ((cfg2.win 7).blk t).view.emb (ix2 p q) = (ix2 r q : S100000x2.Idx) := by
  obtain ⟨-, -, -, -, -, -, -, -, -, -, -, -, -, -, e0, e1⟩ := idx2 t
  funext a
  apply Fin.ext
  match a with
  | ⟨0, _⟩ => show win2_7.index t (0 : Fin 2) * 5000 + 1 * p.val = r.val; omega
  | ⟨1, _⟩ => show win2_7.index t (1 : Fin 2) * 2 + 1 * q.val = q.val; omega

/-- WHAT POINT t WRITES BACK is block t of the combine step followed by the classifier, of the arrays the region finds. -/
theorem flushed2_eq (c : Dev nD) (t : Fin cfg2.N) :
    (dat2 (F := Ideal) V c).flushed 7 t = ((cfg2.win 7).blk t).view.read (Elt Ideal)
      (GOut (V c main_v66) (V c main_v54) (V c main_v12) (V c main_v68) (V c main_v70) (V c main_v19) (V c main_v20)) := by
  show (cfg2.win 7).cut (grid2.coords t) ((dat2 V c).after 7 t) = _
  rw [after2_7]
  unfold out2_7
  rw [View.canon_unit_zero hz]
  simp only [View.ld_unit_zero (S := S5000x64) hz, View.ld_unit_zero (S := S5000x1) hz, View.ld_unit_zero (S := S128x64) hz,
    View.ld_unit_zero (S := S1x64) hz, View.ld_unit_zero (S := S64x2) hz, View.ld_unit_zero (S := S1x2) hz]
  funext y
  obtain ⟨p, q, rfl⟩ : ∃ (p : Fin 5000) (q : Fin 2), y = ix2 p q := ⟨y 0, y 1, eq_ix2 y⟩
  have hN : cfg2.N = 20 := N_2
  have ht : t.val < 20 := hN ▸ t.isLt
  have hp : p.val < 5000 := p.isLt
  let r : Fin 100000 := ⟨t.val * 5000 + p.val, by omega⟩
  have hr : r.val = t.val * 5000 + p.val := rfl
  show k2_pay1 (iblk2 V c 0 t) (iblk2 V c 2 t) (iblk2 V c 1 t) (iblk2 V c 3 t) (iblk2 V c 4 t) (iblk2 V c 5 t) (iblk2 V c 6 t) (ix2 p q)
      = GOut (V c main_v66) (V c main_v54) (V c main_v12) (V c main_v68) (V c main_v70) (V c main_v19) (V c main_v20)
          (((cfg2.win 7).blk t).view.emb (ix2 p q))
  rw [emb2_7 t p q r hr]
  refine (pay2_apply _ _ _ _ _ _ _ p q).trans ?_
  show _ = (∑ k : Fin 64, kerEntry (V c main_v66) (V c main_v54) (V c main_v12) (V c main_v68) (V c main_v70) r k
      * V c main_v19 (ix2 k q)) + V c main_v20 (ix2 (0 : Fin 1) q)
  unfold kerEntry
  refine congrArg₂ (· + ·) (Finset.sum_congr rfl fun j _ => congrArg₂ (· * ·)
    (congrArg₂ (· + ·) (congrArg₂ (· + ·) (Finset.sum_congr rfl fun k _ => ?_) (Finset.sum_congr rfl fun k _ => ?_)) ?_) ?_) ?_
  · exact congrArg₂ (· * ·) (congrArg₂ (· * ·) (blk2_0 V c t p k r hr) (blk2_2 V c t p r hr)) (blk2_3 V c t _ j)
  · exact congrArg₂ (· * ·) (blk2_1 V c t p k r hr) (blk2_3 V c t _ j)
  · exact blk2_4 V c t j
  · exact blk2_5 V c t j q
  · exact blk2_6 V c t q

/-- An index of the output array is in point t's block iff each coordinate is in the block's range on its axis. -/
theorem mem_blk2 (t : Fin cfg2.N) (i : S100000x2.Idx) :
    i ∈ ((cfg2.win 7).blk t).view.set ↔ ∀ a : Fin 2, win2_7.index t a * S5000x2.size a ≤ (i a).val
      ∧ (i a).val < win2_7.index t a * S5000x2.size a + S5000x2.size a := by
  show i ∈ ((View.whole main_v71).slice (win2_7.rect t)).set ↔ _
  rw [View.set_slice_whole, Rect.mem_set_unit]
  exact Iff.rfl

/-- Every row r of the output lies in the block of point r / 5000, which is written back. -/
theorem cover2 (i : S100000x2.Idx) :
    ∃ t : Fin cfg2.N, (cfg2.win 7).flush t = true ∧ i ∈ ((cfg2.win 7).blk t).view.set := by
  have hN : cfg2.N = 20 := N_2
  have hi0 : (i 0).val < 100000 := (i 0).isLt
  have hi1 : (i 1).val < 2 := (i 1).isLt
  let t : Fin cfg2.N := ⟨(i 0).val / 5000, by rw [hN]; omega⟩
  have htv : t.val = (i 0).val / 5000 := rfl
  obtain ⟨-, -, -, -, -, -, -, -, -, -, -, -, -, -, e0, e1⟩ := idx2 t
  refine ⟨t, flush2_7 t, ?_⟩
  rw [mem_blk2]
  intro a
  match a with
  | ⟨0, _⟩ =>
    show win2_7.index t (0 : Fin 2) * 5000 ≤ (i 0).val ∧ (i 0).val < win2_7.index t (0 : Fin 2) * 5000 + 5000
    omega
  | ⟨1, _⟩ =>
    show win2_7.index t (1 : Fin 2) * 2 ≤ (i 1).val ∧ (i 1).val < win2_7.index t (1 : Fin 2) * 2 + 2
    omega

/-- THE OUTPUT ARRAY of region 2 after the run: the last combine step followed by the classifier, of the arrays the
    region finds. -/
theorem final2 (c : Dev nD) : (dat2 (F := Ideal) V c).arrAt 7 cfg2.N
    = GOut (V c main_v66) (V c main_v54) (V c main_v12) (V c main_v68) (V c main_v70) (V c main_v19) (V c main_v20) :=
  (dat2 V c).arrAt_eq_of_cover 7
    (GOut (V c main_v66) (V c main_v54) (V c main_v12) (V c main_v68) (V c main_v70) (V c main_v19) (V c main_v20))
    (fun t _ => flushed2_eq V c t) cover2

/-- REGION 2, entry by entry. -/
theorem region2_entry (c : Dev nD) (r : Fin 100000) (q : Fin 2) :
    (dat2 (F := Ideal) V c).arrAt 7 cfg2.N (ix2 r q)
      = (∑ k : Fin 64, kerEntry (V c main_v66) (V c main_v54) (V c main_v12) (V c main_v68) (V c main_v70) r k
          * V c main_v19 (ix2 k q)) + V c main_v20 (ix2 (0 : Fin 1) q) :=
  congrFun (final2 V c) (ix2 r q)

end Cert.Sage.Ker

end
-- ==== Proof.Bridge.lean ====
/-
  The kernel program's last boundary holds the reference's result.

  Layer by layer. The first region is entered with the edge sum of the input features, the input features, the
  reciprocal-degree column and the first layer's stacked weights and bias row; what it leaves in its output array is,
  entry by entry, the kernel's arrangement of the combine step followed by the larger-of-zero, which is the
  reference's first hidden array. The second host stretch forms the edge sum of THAT array by the same operations
  the reference applies to its own first hidden array, so the second region is entered with arrays equal to the
  reference's, and leaves the reference's second hidden array. The third region does the same without the
  larger-of-zero and multiplies by the transposed classifier matrix, which is the reference's output.
-/
import proofs.«142910_j893353198160_2_alg».proof.Proof.HostK
import proofs.«142910_j893353198160_2_alg».proof.Proof.HostPrep
import proofs.«142910_j893353198160_2_alg».proof.Proof.Steps
import proofs.«142910_j893353198160_2_alg».proof.Proof.RefEntries
import proofs.«142910_j893353198160_2_alg».proof.Proof.Glue
import proofs.«142910_j893353198160_2_alg».proof.Proof.KernelRegions

noncomputable section

open scoped BigOperators

namespace Cert.Sage.Bridge

open Cert.KernelIdeal Cert.KernelIdeal.Gen Cert.Sage Cert.Sage.Host
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- After the first region its output array is the reference's first hidden array. -/
theorem hidden1 : W2 m ρ c (Proc.devRef .tc main_v37) = Cert.ReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  step_relu Ker.Z (0 : Fin 3) _ _
    (V1 m ρ c main_v32) (V1 m ρ c main_arg0) _ _ (V1 m ρ c main_v12) _ (V1 m ρ c main_v34) (V1 m ρ c main_v36)
    (m ((c : Thread nD τ).loc main_arg2)) (m ((c : Thread nD τ).loc main_arg4)) (m ((c : Thread nD τ).loc main_arg3))
    (fun r q => (congrFun (W2_arr m ρ c 5) (ix2 r q)).trans (Ker.region0_entry (V1 m ρ) c r q))
    (fun r q => Ref.h1_entry (m ((c : Thread nD τ).loc main_arg0)) (m ((c : Thread nD τ).loc main_arg1)) (m ((c : Thread nD τ).loc main_arg2)) (m ((c : Thread nD τ).loc main_arg3)) (m ((c : Thread nD τ).loc main_arg4)) r q)
    ((W1_v32 m ρ c).trans (Glue.agg0 (m ((c : Thread nD τ).loc main_arg0)) (m ((c : Thread nD τ).loc main_arg1))).symm)
    (W1_arg0 m ρ c)
    ((W1_v12 m ρ c).trans (Glue.inv (m ((c : Thread nD τ).loc main_arg1))).symm)
    (fun k q => (congrFun (W1_v34 m ρ c) (ix2 (Fin.castAdd 64 k) q)).trans (Prep.stack_left (0 : Fin 3) (m ((c : Thread nD τ).loc main_arg2)) (m ((c : Thread nD τ).loc main_arg4)) Cert.KernelIdeal.Facts₀.transposes_S3x64x64_S3x64x64_0_2_1 Cert.KernelIdeal.Facts₀.concatenates_S3x64x64_S3x64x64_S3x128x64_d1 Cert.KernelIdeal.Facts₀.slices_S3x128x64_S1x128x64_0_0_0 Cert.KernelIdeal.Facts₀.shapeCasts_S1x128x64_S128x64 k q))
    (fun k q => (congrFun (W1_v34 m ρ c) (ix2 (Fin.natAdd 64 k) q)).trans (Prep.stack_right (0 : Fin 3) (m ((c : Thread nD τ).loc main_arg2)) (m ((c : Thread nD τ).loc main_arg4)) Cert.KernelIdeal.Facts₀.transposes_S3x64x64_S3x64x64_0_2_1 Cert.KernelIdeal.Facts₀.concatenates_S3x64x64_S3x64x64_S3x128x64_d1 Cert.KernelIdeal.Facts₀.slices_S3x128x64_S1x128x64_0_0_0 Cert.KernelIdeal.Facts₀.shapeCasts_S1x128x64_S128x64 k q))
    (fun q => (congrFun (W1_v36 m ρ c) (ix2 (0 : Fin 1) q)).trans (Prep.biasRow_apply (0 : Fin 3) (m ((c : Thread nD τ).loc main_arg3)) Cert.KernelIdeal.Facts₀.shapeCasts_S3x64_S3x1x64 Cert.KernelIdeal.Facts₀.slices_S3x1x64_S1x1x64_0_0_0 Cert.KernelIdeal.Facts₀.shapeCasts_S1x1x64_S1x64 q))

/-- After the second region its output array is the reference's second hidden array. -/
theorem hidden2 : W4 m ρ c (Proc.devRef .tc main_v54) = Cert.ReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  step_relu Ker.Z (1 : Fin 3) _ _
    (V3 m ρ c main_v49) (V3 m ρ c main_v37) _ _ (V3 m ρ c main_v12) _ (V3 m ρ c main_v51) (V3 m ρ c main_v53)
    (m ((c : Thread nD τ).loc main_arg2)) (m ((c : Thread nD τ).loc main_arg4)) (m ((c : Thread nD τ).loc main_arg3))
    (fun r q => (congrFun (W4_arr m ρ c 5) (ix2 r q)).trans (Ker.region1_entry (V3 m ρ) c r q))
    (fun r q => Ref.h2_entry (m ((c : Thread nD τ).loc main_arg0)) (m ((c : Thread nD τ).loc main_arg1)) (m ((c : Thread nD τ).loc main_arg2)) (m ((c : Thread nD τ).loc main_arg3)) (m ((c : Thread nD τ).loc main_arg4)) r q)
    ((W3_v49 m ρ c).trans ((congrArg (edgeSum (m ((c : Thread nD τ).loc main_arg1))) (hidden1 m ρ c)).trans (Glue.agg1 (m ((c : Thread nD τ).loc main_arg0)) (m ((c : Thread nD τ).loc main_arg1)) (m ((c : Thread nD τ).loc main_arg2)) (m ((c : Thread nD τ).loc main_arg3)) (m ((c : Thread nD τ).loc main_arg4))).symm))
    ((W3_v37 m ρ c).trans (hidden1 m ρ c))
    ((W3_v12 m ρ c).trans (Glue.inv (m ((c : Thread nD τ).loc main_arg1))).symm)
    (fun k q => (congrFun (W3_v51 m ρ c) (ix2 (Fin.castAdd 64 k) q)).trans (Prep.stack_left (1 : Fin 3) (m ((c : Thread nD τ).loc main_arg2)) (m ((c : Thread nD τ).loc main_arg4)) Cert.KernelIdeal.Facts₀.transposes_S3x64x64_S3x64x64_0_2_1 Cert.KernelIdeal.Facts₀.concatenates_S3x64x64_S3x64x64_S3x128x64_d1 Cert.KernelIdeal.Facts₀.slices_S3x128x64_S1x128x64_1_0_0 Cert.KernelIdeal.Facts₀.shapeCasts_S1x128x64_S128x64 k q))
    (fun k q => (congrFun (W3_v51 m ρ c) (ix2 (Fin.natAdd 64 k) q)).trans (Prep.stack_right (1 : Fin 3) (m ((c : Thread nD τ).loc main_arg2)) (m ((c : Thread nD τ).loc main_arg4)) Cert.KernelIdeal.Facts₀.transposes_S3x64x64_S3x64x64_0_2_1 Cert.KernelIdeal.Facts₀.concatenates_S3x64x64_S3x64x64_S3x128x64_d1 Cert.KernelIdeal.Facts₀.slices_S3x128x64_S1x128x64_1_0_0 Cert.KernelIdeal.Facts₀.shapeCasts_S1x128x64_S128x64 k q))
    (fun q => (congrFun (W3_v53 m ρ c) (ix2 (0 : Fin 1) q)).trans (Prep.biasRow_apply (1 : Fin 3) (m ((c : Thread nD τ).loc main_arg3)) Cert.KernelIdeal.Facts₀.shapeCasts_S3x64_S3x1x64 Cert.KernelIdeal.Facts₀.slices_S3x1x64_S1x1x64_1_0_0 Cert.KernelIdeal.Facts₀.shapeCasts_S1x1x64_S1x64 q))

/-- After the third region its output array is the reference's result. -/
theorem result : W6 m ρ c (Proc.devRef .tc main_v71)
    = Cert.ReferenceIdeal.Read.val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  step_out (2 : Fin 3) _ _ (Cert.ReferenceIdeal.Read.val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)))
    (V5 m ρ c main_v66) (V5 m ρ c main_v54) _ _ (V5 m ρ c main_v12) _ (V5 m ρ c main_v68) (V5 m ρ c main_v70)
    (m ((c : Thread nD τ).loc main_arg2)) (m ((c : Thread nD τ).loc main_arg4)) (m ((c : Thread nD τ).loc main_arg3)) (V5 m ρ c main_v19) (V5 m ρ c main_v20) (m ((c : Thread nD τ).loc main_arg5)) (m ((c : Thread nD τ).loc main_arg6))
    (fun r q => (congrFun (W6_arr m ρ c 7) (ix2 r q)).trans (Ker.region2_entry (V5 m ρ) c r q))
    (fun r q => Ref.out_entry (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) r q)
    (fun r k => Ref.h3_entry (m ((c : Thread nD τ).loc main_arg0)) (m ((c : Thread nD τ).loc main_arg1)) (m ((c : Thread nD τ).loc main_arg2)) (m ((c : Thread nD τ).loc main_arg3)) (m ((c : Thread nD τ).loc main_arg4)) r k)
    ((W5_v66 m ρ c).trans ((congrArg (edgeSum (m ((c : Thread nD τ).loc main_arg1))) (hidden2 m ρ c)).trans (Glue.agg2 (m ((c : Thread nD τ).loc main_arg0)) (m ((c : Thread nD τ).loc main_arg1)) (m ((c : Thread nD τ).loc main_arg2)) (m ((c : Thread nD τ).loc main_arg3)) (m ((c : Thread nD τ).loc main_arg4))).symm))
    ((W5_v54 m ρ c).trans (hidden2 m ρ c))
    ((W5_v12 m ρ c).trans (Glue.inv (m ((c : Thread nD τ).loc main_arg1))).symm)
    (fun k q => (congrFun (W5_v68 m ρ c) (ix2 (Fin.castAdd 64 k) q)).trans (Prep.stack_left (2 : Fin 3) (m ((c : Thread nD τ).loc main_arg2)) (m ((c : Thread nD τ).loc main_arg4)) Cert.KernelIdeal.Facts₀.transposes_S3x64x64_S3x64x64_0_2_1 Cert.KernelIdeal.Facts₀.concatenates_S3x64x64_S3x64x64_S3x128x64_d1 Cert.KernelIdeal.Facts₀.slices_S3x128x64_S1x128x64_2_0_0 Cert.KernelIdeal.Facts₀.shapeCasts_S1x128x64_S128x64 k q))
    (fun k q => (congrFun (W5_v68 m ρ c) (ix2 (Fin.natAdd 64 k) q)).trans (Prep.stack_right (2 : Fin 3) (m ((c : Thread nD τ).loc main_arg2)) (m ((c : Thread nD τ).loc main_arg4)) Cert.KernelIdeal.Facts₀.transposes_S3x64x64_S3x64x64_0_2_1 Cert.KernelIdeal.Facts₀.concatenates_S3x64x64_S3x64x64_S3x128x64_d1 Cert.KernelIdeal.Facts₀.slices_S3x128x64_S1x128x64_2_0_0 Cert.KernelIdeal.Facts₀.shapeCasts_S1x128x64_S128x64 k q))
    (fun q => (congrFun (W5_v70 m ρ c) (ix2 (0 : Fin 1) q)).trans (Prep.biasRow_apply (2 : Fin 3) (m ((c : Thread nD τ).loc main_arg3)) Cert.KernelIdeal.Facts₀.shapeCasts_S3x64_S3x1x64 Cert.KernelIdeal.Facts₀.slices_S3x1x64_S1x1x64_2_0_0 Cert.KernelIdeal.Facts₀.shapeCasts_S1x1x64_S1x64 q))
    (fun k q => (congrFun (W5_v19 m ρ c) (ix2 k q)).trans (Prep.transpose_pair_apply (m ((c : Thread nD τ).loc main_arg5)) Cert.KernelIdeal.Facts₀.transposes_S2x64_S64x2_1_0 k q))
    (fun q => (congrFun (W5_v20 m ρ c) (ix2 (0 : Fin 1) q)).trans (Prep.reshape_row_apply (m ((c : Thread nD τ).loc main_arg6)) Cert.KernelIdeal.Facts₀.shapeCasts_S2_S1x2 q))

end Cert.Sage.Bridge

end
-- ==== Proof.lean ====
/-
  A three-layer GraphSAGE network (mean aggregation over a million edges, 64 features, a two-class
  classifier) computed by three tiled kernels with host code between them, against the plain reference.

  At the ideal reading every change of float format is the identity, a product into a zero accumulator is the
  plain sum of products, and the gather and the scatter-add are the same host operations in both programs. Per
  layer the kernel lays the scaled neighbour sum and the node's own row side by side and multiplies by one stacked
  128x64 matrix, then adds the bias; the reference multiplies by the two transposed 64x64 matrices separately and
  adds the bias in between. A sum over 128 positions splits into the sums over its two halves and addition on
  the extended reals is commutative and associative, so the two agree entry by entry with no finiteness
  assumption; the precondition is not used. The claims: the three programs run without fault and leave their
  arguments unchanged (the two kernel programs by their generated frame runs, the reference by its generated
  run); the idealization rewrote nothing; and the idealized kernel's result buffer, read off the contents after
  its third region, is the reference's result array.
-/
import proofs.«142910_j893353198160_2_alg».proof.Defs
import proofs.«142910_j893353198160_2_alg».proof.Proof.Gen.Kernel
import proofs.«142910_j893353198160_2_alg».proof.Proof.Gen.Kernel.Skeleton
import proofs.«142910_j893353198160_2_alg».proof.Proof.Gen.Kernel.Launch
import proofs.«142910_j893353198160_2_alg».proof.Proof.Gen.Kernel.Points
import proofs.«142910_j893353198160_2_alg».proof.Proof.Gen.Kernel.Frame
import proofs.«142910_j893353198160_2_alg».proof.Proof.Gen.KernelIdeal
import proofs.«142910_j893353198160_2_alg».proof.Proof.Gen.KernelIdeal.Skeleton
import proofs.«142910_j893353198160_2_alg».proof.Proof.Gen.KernelIdeal.Launch
import proofs.«142910_j893353198160_2_alg».proof.Proof.Gen.KernelIdeal.Points
import proofs.«142910_j893353198160_2_alg».proof.Proof.Gen.KernelIdeal.Frame
import proofs.«142910_j893353198160_2_alg».proof.Proof.Gen.ReferenceIdeal
import proofs.«142910_j893353198160_2_alg».proof.Proof.Gen.ReferenceIdeal.Run
import proofs.«142910_j893353198160_2_alg».proof.Proof.Gen.ReferenceIdeal.Read
import proofs.«142910_j893353198160_2_alg».proof.Proof.Gen.Pre_finite_inputs
import proofs.«142910_j893353198160_2_alg».proof.Proof.FrameValue
import proofs.«142910_j893353198160_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The reference runs and keeps its arguments: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end, the kernel's result buffer at the contents after its
    third region and the reference's at its composed term, and these are the same array. -/
theorem algebraic : Cert.algebraic_KernelIdeal_ReferenceIdeal := by
  intro m ρ m' ρ' _ hagree
  refine ⟨fun c => Cert.KernelIdeal.Gen.W6 m ρ c (Proc.devRef .tc Cert.KernelIdeal.main_v71),
    Cert.KernelIdeal.RunValue.run_result m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [Cert.ReferenceIdeal.Read.val_main_v97_eq, e0, e1, e2, e3, e4, e5, e6]
  exact (Cert.Sage.Bridge.result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
